-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x129 : Shape := ⟨2, ![100000, 129]⟩
abbrev S1600000x1 : Shape := ⟨2, ![1600000, 1]⟩
abbrev S1600000x129 : Shape := ⟨2, ![1600000, 129]⟩
abbrev S256x128 : Shape := ⟨2, ![256, 128]⟩
abbrev S1x128 : Shape := ⟨2, ![1, 128]⟩
abbrev S10000x128 : Shape := ⟨2, ![10000, 128]⟩
abbrev S10000x1 : Shape := ⟨2, ![10000, 1]⟩
abbrev S10000x256 : Shape := ⟨2, ![10000, 256]⟩
abbrev S1600000x128 : Shape := ⟨2, ![1600000, 128]⟩
abbrev S256x64 : Shape := ⟨2, ![256, 64]⟩
abbrev S100000x64 : Shape := ⟨2, ![100000, 64]⟩

abbrev nBuf : Space → Nat
  | .hbm => 60
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x128, .bf16⟩
  | .hbm, ⟨13, _⟩ => ⟨S_, .bf16⟩
  | .hbm, ⟨14, _⟩ => ⟨S100000x1, .bf16⟩
  | .hbm, ⟨15, _⟩ => ⟨S100000x129, .bf16⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x129, .bf16⟩
  | .hbm, ⟨25, _⟩ => ⟨S1600000x129, .f32⟩
  | .hbm, ⟨26, _⟩ => ⟨S_, .f32⟩
  | .hbm, ⟨27, _⟩ => ⟨S100000x129, .f32⟩
  | .hbm, ⟨28, _⟩ => ⟨S1600000x1, .i32⟩
  | .hbm, ⟨29, _⟩ => ⟨S100000x129, .f32⟩
  | .hbm, ⟨30, _⟩ => ⟨S100000x128, .f32⟩
  | .hbm, ⟨31, _⟩ => ⟨S100000x1, .f32⟩
  | .hbm, ⟨32, _⟩ => ⟨S256x128, .f32⟩
  | .hbm, ⟨33, _⟩ => ⟨S1x128, .f32⟩
  | .hbm, ⟨34, _⟩ => ⟨S100000x128, .f32⟩
  | .hbm, ⟨35, _⟩ => ⟨S100000x128, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .bf16⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S256x64, .f32⟩
  | .hbm, ⟨51, _⟩ => ⟨S_, .i32⟩
  | .hbm, ⟨52, _⟩ => ⟨S_, .f32⟩
  | .hbm, ⟨53, _⟩ => ⟨S256x128, .f32⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S100000x128, .f32⟩
  | .hbm, ⟨59, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S256x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x1, .f32⟩
  | .local _ .vmem, ⟨13, _⟩ => ⟨S10000x1, .f32⟩
  | .local _ .vmem, ⟨14, _⟩ => ⟨S10000x128, .f32⟩
  | .local _ .vmem, ⟨15, _⟩ => ⟨S10000x128, .f32⟩
  | .local _ .vmem, ⟨16, _⟩ => ⟨S256x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_call0_v0 : Ref sig .tc := ⟨.hbm, 52, rfl⟩
abbrev main_v36 : Ref sig .tc := ⟨.hbm, 53, rfl⟩
abbrev main_c_6 : Ref sig .tc := ⟨.hbm, 54, rfl⟩
abbrev main_call1_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S100000x1 : S_.BroadcastsInDim S100000x1 (![] : Fin 0 → Fin S100000x1.rank)
  concatenates_S100000x128_S100000x1_S100000x129_d1 : Shape.Concatenates [S100000x128, S100000x1] S100000x129 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x129 : S_.BroadcastsInDim S100000x129 (![] : Fin 0 → Fin S100000x129.rank)
  slices_S100000x129_S100000x128_0_0 : S100000x129.Slices ![0, 0] S100000x128
  slices_S100000x129_S100000x1_0_128 : S100000x129.Slices ![0, 128] S100000x1
  concatenates_S128x128_S128x128_S256x128_d0 : Shape.Concatenates [S128x128, S128x128] S256x128 0
  shapeCasts_S128_S1x128 : S128.ShapeCasts S1x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  concatenates_S10000x128_S10000x128_S10000x256_d1 : Shape.Concatenates [S10000x128, S10000x128] S10000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S100000x128 : S_.BroadcastsInDim S100000x128 (![] : Fin 0 → Fin S100000x128.rank)
  concatenates_S128x64_S128x64_S256x64_d0 : Shape.Concatenates [S128x64, S128x64] S256x64 0
  pads_S256x64_S256x128_000_0640 : S256x64.Pads (![0, 0] : Fin 2 → Nat) ![0, 64] ![0, 0] S256x128
  h_S_ : 0 < S_.numel
  pads_S64_S128_0640 : S64.Pads (![0] : Fin 1 → Nat) ![64] ![0] S128
  slices_S100000x128_S100000x64_0_0 : S100000x128.Slices ![0, 0] S100000x64
  gather_S100000x129_S1600000x1_S1600000x129_1_0_n_n_0_1_1129_wf : GatherDims.WF S100000x129 S1600000x1 S1600000x129 [1] [0] [] [0] [] 1 ![1, 129]
  scatter_S100000x129_S1600000x1_S1600000x129_1_0_0_1_wf : ScatterDims.WF S100000x129 S1600000x1 S1600000x129 [1] [0] [0] 1
  dot_S10000x256_S256x128_S10000x128_1_0_0_1_n_n_wf : DotDims.WF S10000x256 S256x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)

variable [Facts₀]

def gather_S100000x129_S1600000x1_S1600000x129_1_0_n_n_0_1_1129 : GatherDims S100000x129 S1600000x1 S1600000x129 where
  offsetDims := [1]
  collapsedSliceDims := [0]
  operandBatchingDims := []
  startIndicesBatchingDims := []
  startIndexMap := [0]
  indexVectorDim := 1
  sliceSizes := ![1, 129]
  wf := gather_S100000x129_S1600000x1_S1600000x129_1_0_n_n_0_1_1129_wf
def scatter_S100000x129_S1600000x1_S1600000x129_1_0_0_1 : ScatterDims S100000x129 S1600000x1 S1600000x129 where
  updateWindowDims := [1]
  insertedWindowDims := [0]
  scatterDimsToOperandDims := [0]
  indexVectorDim := 1
  wf := scatter_S100000x129_S1600000x1_S1600000x129_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v18) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibMeanLayer.lean ====
/-
  One mean-aggregation graph layer, entry by entry on the extended reals, in the two arrangements the two
  programs use, and the law that joins them.

  A layer takes, per node p, the SUM agg(p,·) of its in-neighbours' feature rows, the node's in-degree c(p), its own
  feature row h(p,·), two weight matrices and a bias, and returns

      max( Σ_k mean(p,k)·W_l(q,k) + b(q) + Σ_k h(p,k)·W_r(q,k) , 0 ),      mean(p,k) = agg(p,k) / max(c(p),1).

  One program divides the sum by the clamped degree; the other multiplies it by the reciprocal 1 / max(c(p),1), uses
  the weights already transposed, and adds the bias last. The clamped degree is at least 1, so it is never zero, and
  for a nonzero divisor d both a / d and a·(1/d) are a·d⁻¹ — whatever a is, infinite values included. Sums of three terms
  in two orders agree because addition of extended reals is commutative and associative. No finiteness is used.
-/
import Idealize.ShloMosaic.PureOps.Ideal
import Idealize.ShloMosaic.Lib.ValueIdx

noncomputable section

namespace MeanLayer

open Idealize.ShloMosaic Idealize.ShloMosaic.ValueIdx

/-- The f32 word of 1.0 denotes the number 1. -/
theorem one_f32 : Ideal.ofBits .f32 0x3F800000#32 = 1 := by
  simp [Ideal.ofBits, Ideal.ieee, -EReal.coe_mul]; norm_num

/-- A degree clamped below by 1 is positive, so it is not zero. -/
theorem clamp_ne_zero (c : EReal) : max c 1 ≠ 0 :=
  ne_of_gt (lt_of_lt_of_le zero_lt_one (le_max_right c 1))

/-- Multiplying by the reciprocal of a clamped degree is dividing by it, for EVERY extended real `a`: both sides are
    `a · (max c 1)⁻¹`, the divisor not being zero. -/
theorem mul_recip_clamp (a c : EReal) : a * Ideal.div 1 (max c 1) = Ideal.div a (max c 1) := by
  rw [Ideal.div, Ideal.div, if_neg (clamp_ne_zero c), if_neg (clamp_ne_zero c), one_mul]

/-- The same with the two ones spelt as the f32 word of 1.0. -/
theorem mul_recip_clamp_word (a c : EReal) :
    a * Ideal.div (Ideal.ofBits .f32 0x3F800000#32) (max c (Ideal.ofBits .f32 0x3F800000#32))
      = Ideal.div a (max c (Ideal.ofBits .f32 0x3F800000#32)) := by
  rw [one_f32]; exact mul_recip_clamp a c

/-- A matrix of extended reals over the index type of an `[a, b]` array, and a vector over that of an `[a]` array. -/
abbrev Mat (a b : ℕ) := (⟨2, ![a, b]⟩ : Shape).Idx → EReal
abbrev Row (a : ℕ) := (⟨1, ![a]⟩ : Shape).Idx → EReal

/-- Hidden unit (p, q) of one layer in the arrangement that multiplies by a reciprocal degree column `inv`, contracts
    against weights stored input-feature-major (`wl (k, q)`), adds the self term second and the bias last, and
    rectifies against the f32 zero word. -/
def hidden {n d e : ℕ} (agg : Mat n d) (inv : Mat n 1) (h : Mat n d) (wl wr : Mat d e) (b : Row e)
    (p : Fin n) (q : Fin e) : EReal :=
  max ((∑ k : Fin d, (agg (ix2 p k) * inv (ix2 p (0 : Fin 1))) * wl (ix2 k q))
        + (∑ k : Fin d, h (ix2 p k) * wr (ix2 k q)) + b (ix1 q))
      (Ideal.ofBits .f32 0x00000000#32)

/-- The layer as a whole array: entry `i` is hidden unit `(i 0, i 1)`. -/
def layer {n d e : ℕ} (agg : Mat n d) (inv : Mat n 1) (h : Mat n d) (wl wr : Mat d e) (b : Row e) : Mat n e :=
  fun i => hidden agg inv h wl wr b (i 0) (i 1)

theorem layer_apply {n d e : ℕ} (agg : Mat n d) (inv : Mat n 1) (h : Mat n d) (wl wr : Mat d e) (b : Row e)
    (p : Fin n) (q : Fin e) : layer agg inv h wl wr b (ix2 p q) = hidden agg inv h wl wr b p q := rfl

/-- Output unit (p, r) of the last stage: a second layer's hidden row contracted against the read-out weights
    (stored hidden-feature-major, `fw (j, r)`) plus the read-out bias. -/
def readout {n d e o : ℕ} (agg : Mat n d) (inv : Mat n 1) (h : Mat n d) (wl wr : Mat d e) (b : Row e)
    (fw : Mat e o) (fb : Row o) (p : Fin n) (r : Fin o) : EReal :=
  (∑ j : Fin e, hidden agg inv h wl wr b p j * fw (ix2 j r)) + fb (ix1 r)

/-- The last stage as a whole array. -/
def head {n d e o : ℕ} (agg : Mat n d) (inv : Mat n 1) (h : Mat n d) (wl wr : Mat d e) (b : Row e)
    (fw : Mat e o) (fb : Row o) : Mat n o :=
  fun i => readout agg inv h wl wr b fw fb (i 0) (i 1)

theorem head_apply {n d e o : ℕ} (agg : Mat n d) (inv : Mat n 1) (h : Mat n d) (wl wr : Mat d e) (b : Row e)
    (fw : Mat e o) (fb : Row o) (p : Fin n) (r : Fin o) :
    head agg inv h wl wr b fw fb (ix2 p r) = readout agg inv h wl wr b fw fb p r := rfl

/-- The joining law at one hidden unit: with the reciprocal column `1 / max(c p, 1)` and transposed weights, the
    reciprocal arrangement equals the dividing one (division first, bias second, self term last). -/
theorem hidden_eq_divided {n d e : ℕ} (agg : Mat n d) (c : Fin n → EReal) (inv : Mat n 1) (h : Mat n d)
    (wl wr : Mat d e) (Wl Wr : Mat e d) (b : Row e)
    (hinv : ∀ p, inv (ix2 p (0 : Fin 1))
      = Ideal.div (Ideal.ofBits .f32 0x3F800000#32) (max (c p) (Ideal.ofBits .f32 0x3F800000#32)))
    (hwl : ∀ k q, wl (ix2 k q) = Wl (ix2 q k)) (hwr : ∀ k q, wr (ix2 k q) = Wr (ix2 q k))
    (p : Fin n) (q : Fin e) :
    hidden agg inv h wl wr b p q
      = max ((∑ k : Fin d, Ideal.div (agg (ix2 p k)) (max (c p) (Ideal.ofBits .f32 0x3F800000#32)) * Wl (ix2 q k))
              + b (ix1 q) + (∑ k : Fin d, h (ix2 p k) * Wr (ix2 q k)))
            (Ideal.ofBits .f32 0x00000000#32) := by
  unfold hidden
  congr 1
  rw [add_right_comm]
  congr 1
  · congr 1
    refine Finset.sum_congr rfl fun k _ => ?_
    rw [hinv p, mul_recip_clamp_word, hwl]
  · refine Finset.sum_congr rfl fun k _ => ?_
    rw [hwr]

end MeanLayer

end
-- ==== Proof.GraphMeanSpec.lean ====
/-
  Two layers of mean aggregation over a graph, entry by entry on the extended reals.

  A graph on n nodes is given by two columns of E index words: the source column (already wrapped, so a word that
  reads negative has had n added) and the destination column. An edge e sends the feature row of node
  clamp(src e) — the source word read signed and clamped into [0, n-1] — to node dst e, read signed and NOT clamped:
  an edge whose destination word is outside [0, n) is dropped.

      agg(p,k)  = 0 + Σ_{e : dst e = p} h(clamp(src e), k)          (the neighbours' rows, summed)
      cnt(p)    = 0 + Σ_{e : dst e = p} 1                           (the in-degree)
      unit(p,q) = Σ_k (agg(p,k) / max(cnt p, 1))·W_l(k,q) + Σ_k h(p,k)·W_r(k,q) + b(q)

  The first layer rectifies unit against 0; the second is unit of the first layer's result, over the same edges.
  Two facts join the two programs' arrangements of unit, neither needing any entry to be finite:
  a sum over (edge, column) pairs filtered to one column is the sum over the edges; and one contraction over d + d
  columns, the first d holding agg(p,k)·(1/max(cnt p,1)) against W_l and the last d holding h(p,k) against W_r, is the
  sum of the two contractions over d, because a·(1/c) = a/c for a divisor c ≥ 1 and a sum over d + d terms splits.
-/
import Idealize.ShloMosaic.PureOps.Ideal
import Idealize.ShloMosaic.Lib.ValueIdx
import proofs.«173106_j12781822673112_2_alg».proof.Proof.LibMeanLayer

noncomputable section

open scoped BigOperators

namespace GraphMean

open Idealize.ShloMosaic Idealize.ShloMosaic.ValueIdx

/-- A matrix of extended reals over the index type of an [a, b] array, a vector over that of an [a] array, and a
    column of E 32-bit index words. -/
abbrev Mat (a b : ℕ) := (⟨2, ![a, b]⟩ : Shape).Idx → EReal
abbrev Row (a : ℕ) := (⟨1, ![a]⟩ : Shape).Idx → EReal
abbrev Col (E : ℕ) := IVec ⟨2, ![E, 1]⟩ 32

/-- The f32 words of 0.0 and 1.0, kept as words: both programs print the same ones. -/
abbrev zeroW : EReal := Ideal.ofBits .f32 0x00000000#32
abbrev oneW : EReal := Ideal.ofBits .f32 0x3F800000#32

/-- The node an edge reads from: its source word read signed, clamped into [0, n-1]. -/
def srcRow {n E : ℕ} (hn : 0 < n) (sc : Col E) (e : Fin E) : Fin n :=
  ⟨min (sc (ix2 e 0)).toInt.toNat (n - 1), by omega⟩

/-- The sum, from the zero word, of f over the edges whose destination word reads p. -/
def segSum {n E : ℕ} (dc : Col E) (f : Fin E → EReal) (p : Fin n) : EReal :=
  zeroW + ∑ e ∈ Finset.univ.filter (fun e : Fin E => (dc (ix2 e 0)).toInt = (p.val : Int)), f e

/-- Column k of the rows of h sent to node p, summed. -/
def aggAt {n E d : ℕ} (hn : 0 < n) (sc dc : Col E) (h : Mat n d) (p : Fin n) (k : Fin d) : EReal :=
  segSum dc (fun e => h (ix2 (srcRow hn sc e) k)) p

/-- The number of edges into node p, as a sum of ones. -/
def cntAt {n E : ℕ} (dc : Col E) (p : Fin n) : EReal :=
  segSum dc (fun _ => oneW) p

/-- One output unit before any rectifier: the mean of the neighbours' rows through W_l, the node's own row through
    W_r, the bias last. -/
def unitAt {n d o : ℕ} (a : Fin n → Fin d → EReal) (c : Fin n → EReal) (h : Mat n d) (wl wr : Mat d o) (b : Row o)
    (p : Fin n) (q : Fin o) : EReal :=
  (∑ k : Fin d, Ideal.div (a p k) (max (c p) oneW) * wl (ix2 k q)) + (∑ k : Fin d, h (ix2 p k) * wr (ix2 k q))
    + b (ix1 q)

/-- The first layer's unit (p, q): rectified. -/
def hiddenAt {n E d o : ℕ} (hn : 0 < n) (sc dc : Col E) (x : Mat n d) (wl wr : Mat d o) (b : Row o)
    (p : Fin n) (q : Fin o) : EReal :=
  max (unitAt (aggAt hn sc dc x) (cntAt dc) x wl wr b p q) zeroW

/-- The first layer as a whole array. -/
def hidden {n E d o : ℕ} (hn : 0 < n) (sc dc : Col E) (x : Mat n d) (wl wr : Mat d o) (b : Row o) : Mat n o :=
  fun i => hiddenAt hn sc dc x wl wr b (i 0) (i 1)

theorem hidden_apply {n E d o : ℕ} (hn : 0 < n) (sc dc : Col E) (x : Mat n d) (wl wr : Mat d o) (b : Row o)
    (p : Fin n) (q : Fin o) : hidden hn sc dc x wl wr b (ix2 p q) = hiddenAt hn sc dc x wl wr b p q := rfl

/-- The second layer's unit (p, q): the same edges, the first layer's result as the features, no rectifier. -/
def outputAt {n E d o r : ℕ} (hn : 0 < n) (sc dc : Col E) (x : Mat n d) (wl1 wr1 : Mat d o) (b1 : Row o)
    (wl2 wr2 : Mat o r) (b2 : Row r) (p : Fin n) (q : Fin r) : EReal :=
  unitAt (aggAt hn sc dc (hidden hn sc dc x wl1 wr1 b1)) (cntAt dc) (hidden hn sc dc x wl1 wr1 b1) wl2 wr2 b2 p q

/-- The whole result. -/
def output {n E d o r : ℕ} (hn : 0 < n) (sc dc : Col E) (x : Mat n d) (wl1 wr1 : Mat d o) (b1 : Row o)
    (wl2 wr2 : Mat o r) (b2 : Row r) : Mat n r :=
  fun i => outputAt hn sc dc x wl1 wr1 b1 wl2 wr2 b2 (i 0) (i 1)

theorem output_apply {n E d o r : ℕ} (hn : 0 < n) (sc dc : Col E) (x : Mat n d) (wl1 wr1 : Mat d o) (b1 : Row o)
    (wl2 wr2 : Mat o r) (b2 : Row r) (p : Fin n) (q : Fin r) :
    output hn sc dc x wl1 wr1 b1 wl2 wr2 b2 (ix2 p q) = outputAt hn sc dc x wl1 wr1 b1 wl2 wr2 b2 p q := rfl

/-- A sum over the (edge, column) pairs of an [E, C] array, kept to the pairs whose edge's index word reads z and whose
    column is c, is the sum over the edges whose index word reads z of the entry in column c. -/
theorem sum_pairs_eq_sum_rows {E C : ℕ} (dc : Col E) (z : Int) (c : Fin C)
    (f : (⟨2, ![E, C]⟩ : Shape).Idx → EReal) :
    ∑ j ∈ Finset.univ.filter (fun j : (⟨2, ![E, C]⟩ : Shape).Idx =>
        (dc (ix2 (j 0) 0)).toInt = z ∧ (j 1).val = c.val), f j
      = ∑ e ∈ Finset.univ.filter (fun e : Fin E => (dc (ix2 e 0)).toInt = z), f (ix2 e c) := by
  rw [Finset.sum_filter, Finset.sum_filter, sum_idx2]
  refine Finset.sum_congr rfl fun e _ => ?_
  by_cases hP : (dc (ix2 e 0)).toInt = z
  · rw [if_pos hP]
    rw [Finset.sum_eq_single c]
    · exact if_pos ⟨hP, rfl⟩
    · intro b _ hb
      exact if_neg fun h => hb (Fin.ext h.2)
    · intro h; exact absurd (Finset.mem_univ c) h
  · rw [if_neg hP]
    exact Finset.sum_eq_zero fun b _ => if_neg fun h => hP h.1

/-- One contraction over d + d columns — the first d the neighbours' sums times the reciprocal clamped degree against
    W_l, the last d the node's own row against W_r — plus the bias, is the unit: a·(1/c) = a/c for the clamped degree
    c, and the sum over d + d terms is the sum of its two halves. No entry need be finite. -/
theorem joined_eq_unitAt {n d o : ℕ} (a : Fin n → Fin d → EReal) (c : Fin n → EReal) (h : Mat n d) (wl wr : Mat d o)
    (b : Row o) (p : Fin n) (q : Fin o) (cat w : Fin (d + d) → EReal) (bq : EReal)
    (hcl : ∀ k : Fin d, cat (Fin.castAdd d k) = a p k * Ideal.div oneW (max (c p) oneW))
    (hcr : ∀ k : Fin d, cat (Fin.natAdd d k) = h (ix2 p k))
    (hwl : ∀ k : Fin d, w (Fin.castAdd d k) = wl (ix2 k q))
    (hwr : ∀ k : Fin d, w (Fin.natAdd d k) = wr (ix2 k q))
    (hb : bq = b (ix1 q)) :
    (∑ k : Fin (d + d), cat k * w k) + bq = unitAt a c h wl wr b p q := by
  unfold unitAt
  rw [Fin.sum_univ_add, hb]
  congr 2
  · refine Finset.sum_congr rfl fun k _ => ?_
    rw [hcl, hwl, MeanLayer.mul_recip_clamp_word]
  · refine Finset.sum_congr rfl fun k _ => ?_
    rw [hcr, hwr]

end GraphMean

end
-- ==== Proof.LibGatherScatter.lean ====
/-
  The host's gather and accumulating scatter along axis 0, read at an index.

  A flat array x : [N] or a table x : [N, C] is gathered at a column idx : [E, 1] of start indices (what x[idx] lowers to), and
  updates u : [E] or u : [E, C] are accumulated into such an operand at the rows the column names (what x.at[idx].add(u)
  lowers to). The lemmas hold for ANY dimension-number record of the right type whose lists are the ones this lowering prints;
  the hypotheses on the record's fields are closed by rfl on a printed record.
-/
import Idealize.ShloMosaic.PureOps.Ideal
import Idealize.ShloMosaic.PureOps.Contract
import Idealize.ShloMosaic.Lib.ValueIdx

noncomputable section

open scoped BigOperators

namespace Pegcn.Lib

open Idealize.ShloMosaic Idealize.ShloMosaic.ValueIdx

/-! ## Gather along axis 0 -/

/-- The gather's dimension numbers for an operand [N], start indices [E, 1] and result [E], as an explicit record. -/
private abbrev gDims1 (N E : Nat) (sb : List (Fin (Shape.rank ⟨2, ![E, 1]⟩)))
    (wf : GatherDims.WF ⟨1, ![N]⟩ ⟨2, ![E, 1]⟩ ⟨1, ![E]⟩ [] [0] [] [0] sb 1 ![1]) :
    GatherDims ⟨1, ![N]⟩ ⟨2, ![E, 1]⟩ ⟨1, ![E]⟩ where
  offsetDims := []
  collapsedSliceDims := [0]
  operandBatchingDims := []
  startIndicesBatchingDims := sb
  startIndexMap := [0]
  indexVectorDim := 1
  sliceSizes := ![1]
  wf := wf

/-- The rank-1 gather at the explicit record. -/
private theorem gather1_core {α : Type} {N E w : Nat} (hN : 0 < N) (sb : List (Fin (Shape.rank ⟨2, ![E, 1]⟩)))
    (wf : GatherDims.WF ⟨1, ![N]⟩ ⟨2, ![E, 1]⟩ ⟨1, ![E]⟩ [] [0] [] [0] sb 1 ![1])
    (x : (⟨1, ![N]⟩ : Shape).Idx → α) (idx : IVec ⟨2, ![E, 1]⟩ w) (e : Fin E) :
    Host.gather (gDims1 N E sb wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (gDims1 N E sb wf).start (ix1 e) idx 0 + (gDims1 N E sb wf).batchCoord (ix1 e) 0
    + (gDims1 N E sb wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E sb wf).startIndexMap from List.mem_singleton.mpr rfl)]
  have hsi : (gDims1 N E sb wf).siIdx (ix1 e) ⟨List.idxOf (0 : Fin 1) (gDims1 N E sb wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- A rank-1 operand x : [N] gathered at a column idx : [E, 1] of start indices (collapsed axis 0, start index map [0], the
    index vector on axis 1, slices of one element): result element e is x at the start index idx[e, 0], read as a signed
    integer and clamped into [0, N - 1]. -/
theorem gather1_apply {α : Type} {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1) (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at hod hcd hob hsm hiv hss
  subst hod hcd hob hsm hiv hss
  exact gather1_core hN sb wf x idx e

/-- Of a rank-2 shape's two axes, the one that is not axis 0 is axis 1. -/
private theorem kept2_0 :
    (List.finRange 2).filter (fun a : Fin 2 => decide (a ∉ ([0] ++ [] : List (Fin 2)))) = ([1] : List (Fin 2)) := by
  decide

/-- The gather's dimension numbers for an operand [N, C], start indices [E, 1] and result [E, C], as an explicit record. -/
private abbrev gDims2 (N E C : Nat) (sb : List (Fin (Shape.rank ⟨2, ![E, 1]⟩)))
    (wf : GatherDims.WF ⟨2, ![N, C]⟩ ⟨2, ![E, 1]⟩ ⟨2, ![E, C]⟩ [1] [0] [] [0] sb 1 ![1, C]) :
    GatherDims ⟨2, ![N, C]⟩ ⟨2, ![E, 1]⟩ ⟨2, ![E, C]⟩ where
  offsetDims := [1]
  collapsedSliceDims := [0]
  operandBatchingDims := []
  startIndicesBatchingDims := sb
  startIndexMap := [0]
  indexVectorDim := 1
  sliceSizes := ![1, C]
  wf := wf

/-- The row gather at the explicit record. -/
private theorem gather2_core {α : Type} {N E C w : Nat} (hN : 0 < N) (sb : List (Fin (Shape.rank ⟨2, ![E, 1]⟩)))
    (wf : GatherDims.WF ⟨2, ![N, C]⟩ ⟨2, ![E, 1]⟩ ⟨2, ![E, C]⟩ [1] [0] [] [0] sb 1 ![1, C])
    (x : (⟨2, ![N, C]⟩ : Shape).Idx → α) (idx : IVec ⟨2, ![E, 1]⟩ w) (e : Fin E) (j : Fin C) :
    Host.gather (gDims2 N E C sb wf) x idx (ix2 e j)
      = x (ix2 ⟨min (idx (ix2 e 0)).toInt.toNat (N - 1), by omega⟩ j) := by
  unfold Host.gather
  congr 1
  funext a
  refine Fin.ext ?_
  show (gDims2 N E C sb wf).start (ix2 e j) idx a + (gDims2 N E C sb wf).batchCoord (ix2 e j) a
    + (gDims2 N E C sb wf).offCoord (ix2 e j) a = _
  rw [GatherDims.batchCoord_eq_zero _ _ _ List.not_mem_nil]
  have ha : a = 0 ∨ a = 1 := by
    rcases a with ⟨v, hv⟩
    have hv' : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gDims2 N E C sb wf).startIndexMap from List.mem_singleton.mpr rfl)]
    have hsi : (gDims2 N E C sb wf).siIdx (ix2 e j) ⟨List.idxOf (0 : Fin 2) (gDims2 N E C sb wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N E C sb wf).startIndexMap := by
      intro h; exact absurd (congrArg Fin.val (List.mem_singleton.mp h)) Nat.one_ne_zero
    have hk : (gDims2 N E C sb wf).sKept = [1] := by
      exact kept2_0
    have hget : ∀ (k : Nat) (hk : k < 1), ([1] : List (Fin 2))[k] = 1 := by
      intro k hk; obtain rfl : k = 0 := by omega
      rfl
    unfold GatherDims.start GatherDims.offCoord
    rw [dif_neg h1, dif_pos (by rw [hk]; exact List.mem_singleton.mpr rfl)]
    rw [hget]
    simp only [Nat.zero_add]
    rfl

/-- A table x : [N, C] gathered by rows at a column idx : [E, 1] of start indices (offset axis 1, collapsed axis 0, start
    index map [0], the index vector on axis 1, slices of one whole row): result element (e, j) is x at row idx[e, 0], read as
    a signed integer and clamped into [0, N - 1], column j. -/
theorem gather2_apply {α : Type} {N E C w : Nat} (hN : 0 < N)
    (d : GatherDims ⟨2, ![N, C]⟩ ⟨2, ![E, 1]⟩ ⟨2, ![E, C]⟩)
    (hod : d.offsetDims = [1]) (hcd : d.collapsedSliceDims = [0]) (hob : d.operandBatchingDims = [])
    (hsm : d.startIndexMap = [0]) (hiv : d.indexVectorDim = 1) (hss : d.sliceSizes = ![1, C])
    (x : (⟨2, ![N, C]⟩ : Shape).Idx → α) (idx : IVec ⟨2, ![E, 1]⟩ w) (e : Fin E) (j : Fin C) :
    Host.gather d x idx (ix2 e j) = x (ix2 ⟨min (idx (ix2 e 0)).toInt.toNat (N - 1), by omega⟩ j) := by
  obtain ⟨od, cd, ob, sb, sm, iv, ss, wf⟩ := d
  simp only at hod hcd hob hsm hiv hss
  subst hod hcd hob hsm hiv hss
  exact gather2_core hN sb wf x idx e j

/-! ## Where an update lands -/

/-- An update lands at operand index i exactly when, on every operand axis, the start read signed off the scatter indices plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hi a
      have hi' := congrFun (Option.some.inj hi) a
      have hv : (d.start j idx a + (d.window j a : Int)).toNat = (i a).val := congrArg Fin.val hi'
      have := h a
      omega
    · intro hi
      congr 1
      funext a
      refine Fin.ext ?_
      have := hi a
      have := h a
      show (d.start j idx a + (d.window j a : Int)).toNat = (i a).val
      omega
  · rename_i h
    constructor
    · intro hi
      exact absurd hi (by simp)
    · intro hi
      exfalso
      apply h
      intro a
      have := hi a
      have := (i a).isLt
      omega

/-- The scatter's dimension numbers for an operand [N], scatter indices [E, 1] and updates [E], as an explicit record. -/
private abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The rank-1 landing condition at the explicit record. -/
private theorem scatter1_core {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hs : (sDims1 N E wf).start (ix1 e) idx 0 = (idx (ix2 e 0)).toInt := by
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw : (sDims1 N E wf).window (ix1 e) 0 = 0 := by
    unfold ScatterDims.window
    rw [dif_neg (by simp [Shape.kept])]
  rw [resultIdx?_eq_some_iff]
  constructor
  · intro h
    have h0 : _ = ((n.val : Nat) : Int) := h 0
    rw [hs, hw] at h0
    simpa using h0
  · intro h a
    obtain rfl : a = 0 := Subsingleton.elim _ _
    show _ = ((n.val : Nat) : Int)
    rw [hs, hw, h]
    simp

/-- Updates u : [E] scattered into an operand [N] at a column idx : [E, 1] of scatter indices (no window axes, inserted axis 0,
    the index vector on axis 1): update e lands at element n exactly when its index idx[e, 0], read as a signed integer and
    NOT clamped, is n; an index outside [0, N) lands nowhere. -/
theorem scatter1_lands_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at huw hiw hsd hiv
  subst huw hiw hsd hiv
  exact scatter1_core wf idx e n

/-- The scatter's dimension numbers for an operand [N, C], scatter indices [E, 1] and updates [E, C], as an explicit record. -/
private abbrev sDims2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Of a rank-2 shape's two axes, the one that is not the inserted axis 0 is axis 1. -/
private theorem kept2_0' :
    (List.finRange 2).filter (fun a : Fin 2 => decide (a ∉ ([0] : List (Fin 2)))) = ([1] : List (Fin 2)) := by
  decide

/-- The row landing condition at the explicit record. -/
private theorem scatter2_core {N E C w : Nat} (wf : ScatterDims.WF ⟨2, ![N, C]⟩ ⟨2, ![E, 1]⟩ ⟨2, ![E, C]⟩ [1] [0] [0] 1)
    (idx : IVec ⟨2, ![E, 1]⟩ w) (e : Fin E) (j' : Fin C) (n : Fin N) (j : Fin C) :
    (sDims2 N E C wf).resultIdx? (ix2 e j') idx = some (ix2 n j)
      ↔ (idx (ix2 e 0)).toInt = (n.val : Int) ∧ j' = j := by
  have hs0 : (sDims2 N E C wf).start (ix2 e j') idx 0 = (idx (ix2 e 0)).toInt := by
    unfold ScatterDims.start
    rw [dif_pos (show (0 : Fin 2) ∈ (sDims2 N E C wf).scatterDimsToOperandDims from List.mem_singleton.mpr rfl)]
    have hsi : (sDims2 N E C wf).siIdx (ix2 e j') ⟨List.idxOf (0 : Fin 2) (sDims2 N E C wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (sDims2 N E C wf).window (ix2 e j') 0 = 0 := by
    unfold ScatterDims.window
    rw [dif_neg (by simp [Shape.kept])]
  have hs1 : (sDims2 N E C wf).start (ix2 e j') idx 1 = 0 := by
    unfold ScatterDims.start
    rw [dif_neg (fun h => absurd (congrArg Fin.val (List.mem_singleton.mp h)) Nat.one_ne_zero)]
  have hw1 : (sDims2 N E C wf).window (ix2 e j') 1 = j'.val := by
    have hk : (sDims2 N E C wf).sKept = [1] := kept2_0'
    have hget : ∀ (k : Nat) (hk : k < 1), ([1] : List (Fin 2))[k] = 1 := by
      intro k hk; obtain rfl : k = 0 := by omega
      rfl
    unfold ScatterDims.window
    rw [dif_pos (by rw [hk]; exact List.mem_singleton.mpr rfl), hget]
  rw [resultIdx?_eq_some_iff]
  constructor
  · intro h
    have h0 : _ = ((n.val : Nat) : Int) := h 0
    have h1 : _ = ((j.val : Nat) : Int) := h 1
    rw [hs0, hw0] at h0
    rw [hs1, hw1] at h1
    exact ⟨by simpa using h0, Fin.ext (by omega)⟩
  · rintro ⟨h, rfl⟩ a
    have ha : a = 0 ∨ a = 1 := by
      rcases a with ⟨v, hv⟩
      have hv' : v < 2 := hv
      rcases (by omega : v = 0 ∨ v = 1) with rfl | rfl
      · exact Or.inl rfl
      · exact Or.inr rfl
    rcases ha with rfl | rfl
    · show _ = ((n.val : Nat) : Int)
      rw [hs0, hw0, h]
      simp
    · show _ = ((j'.val : Nat) : Int)
      rw [hs1, hw1]
      simp

/-- Update rows u : [E, C] scattered into a table [N, C] at a column idx : [E, 1] of scatter indices (window axis 1, inserted
    axis 0, the index vector on axis 1): update element (e, j') lands at element (n, j) exactly when its row index idx[e, 0],
    read as a signed integer and NOT clamped, is n and the columns agree; an index outside [0, N) lands nowhere. -/
theorem scatter2_lands_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (idx : IVec ⟨2, ![E, 1]⟩ w) (e : Fin E) (j' : Fin C) (n : Fin N) (j : Fin C) :
    d.resultIdx? (ix2 e j') idx = some (ix2 n j) ↔ (idx (ix2 e 0)).toInt = (n.val : Int) ∧ j' = j := by
  obtain ⟨uw, iw, sd, iv, wf⟩ := d
  simp only at huw hiw hsd hiv
  subst huw hiw hsd hiv
  exact scatter2_core wf idx e j' n j

/-! ## The accumulating scatter at an index -/

/-- The accumulating scatter of updates u : [E] into x : [N] at a column idx : [E, 1] of indices, read at element n at the ideal
    instance: x at n plus the sum of the updates whose index idx[e, 0], read as a signed integer, is n. The sum runs over
    the updates' own index type. -/
theorem scatterAdd1_apply {N E w : Nat} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ j ∈ Finset.univ.filter
          (fun j : (⟨1, ![E]⟩ : Shape).Idx => (idx (ix2 (j 0) 0)).toInt = (n.val : Int)), upd j := by
  show Ideal.hostScatterAdd d x idx upd (ix1 n) = _
  unfold Ideal.hostScatterAdd
  congr 1
  refine Finset.sum_congr (Finset.filter_congr fun j _ => ?_) fun _ _ => rfl
  obtain ⟨e, rfl⟩ : ∃ e, j = ix1 e := ⟨j 0, eq_ix1 j⟩
  exact scatter1_lands_iff d huw hiw hsd hiv idx e n

/-- The accumulating scatter of update rows u : [E, C] into a table x : [N, C] at a column idx : [E, 1] of row indices, read at
    element (n, c) at the ideal instance: x at (n, c) plus the sum of the update elements in column c whose row index
    idx[e, 0], read as a signed integer, is n. The sum runs over the updates' own index type (the column condition is
    written on the coordinates' values). -/
theorem scatterAdd2_apply {N E C w : Nat} {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ j ∈ Finset.univ.filter
          (fun j : (⟨2, ![E, C]⟩ : Shape).Idx =>
            (idx (ix2 (j 0) 0)).toInt = (n.val : Int) ∧ (j 1).val = c.val), upd j := by
  show Ideal.hostScatterAdd d x idx upd (ix2 n c) = _
  unfold Ideal.hostScatterAdd
  congr 1
  refine Finset.sum_congr (Finset.filter_congr fun j _ => ?_) fun _ _ => rfl
  obtain ⟨e, j', rfl⟩ : ∃ e j', j = ix2 e j' := ⟨j 0, j 1, eq_ix2 j⟩
  rw [scatter2_lands_iff d huw hiw hsd hiv idx e j' n c]
  show _ ∧ j' = c ↔ _ ∧ j'.val = c.val
  rw [Fin.ext_iff]
  exact Iff.rfl

/-! ## The wrap of a negative index before a gather

Before it gathers, x[idx] adds the operand's length to every negative index: select(idx < 0, idx + N, idx). On an index that is
not negative the wrap is the identity, and on one below the length the gather's clamp is the identity too. -/

/-- A word that is not negative as a signed integer is not signed-less-than the zero word. -/
theorem cmpi_slt_zero_of_nonneg {w : Nat} (x : BitVec w) (h : 0 ≤ x.toInt) : IntOp.cmpi .slt x 0#w = 0#1 := by
  have hslt : x.slt 0#w = false := by
    simp only [BitVec.slt, BitVec.toInt_zero, decide_eq_false_iff_not, not_lt]
    exact h
  simp only [IntOp.cmpi, hslt]
  rfl

/-- The wrap on one word: a word that is not negative is kept, whatever is added on the other branch. -/
theorem wrap_of_nonneg {w : Nat} (x c : BitVec w) (h : 0 ≤ x.toInt) :
    Scalar.select (IntOp.cmpi .slt x 0#w) (IntOp.addi x c) x = x := by
  rw [cmpi_slt_zero_of_nonneg x h]
  exact select_zero _ _

/-- The wrap on a vector of indices read at an index e: where the compared vector z reads zero and v is not negative, the
    wrapped vector reads v. -/
theorem wrap_apply {s : Shape} {w : Nat} (v z c : IVec s w) (e : s.Idx) (hz : z e = 0#w) (h : 0 ≤ (v e).toInt) :
    select (cmpi .slt v z) (addi v c) v e = v e := by
  show Scalar.select (IntOp.cmpi .slt (v e) (z e)) (IntOp.addi (v e) (c e)) (v e) = v e
  rw [hz]
  exact wrap_of_nonneg _ _ h

/-- The wrap as it is printed, the zero and the length being broadcast constants: at an index where v is not negative the
    wrapped vector reads v. -/
theorem wrap_bcast_apply {s0 s : Shape} {w : Nat} (dims : Fin s0.rank → Fin s.rank)
    (h0 h1 : s0.BroadcastsInDim s dims) (v : IVec s w) (c : BitVec w) (e : s.Idx) (h : 0 ≤ (v e).toInt) :
    select (cmpi .slt v (broadcastInDim s dims h0 (constantI s0 w 0#w)))
      (addi v (broadcastInDim s dims h1 (constantI s0 w c))) v e = v e :=
  wrap_apply v _ _ e rfl h

/-- The gather's clamp is the identity on a start index inside the operand. -/
theorem clamp_of_lt {w : Nat} (x : BitVec w) (N : Nat) (h0 : 0 ≤ x.toInt) (hN : x.toInt < (N : Int)) :
    min x.toInt.toNat (N - 1) = x.toInt.toNat := by
  omega

/-- The wrap then the clamp on one word inside the operand: both are the identity. -/
theorem clamp_wrap_of_lt {w : Nat} (x c : BitVec w) (N : Nat) (h0 : 0 ≤ x.toInt) (hN : x.toInt < (N : Int)) :
    min (Scalar.select (IntOp.cmpi .slt x 0#w) (IntOp.addi x c) x).toInt.toNat (N - 1) = x.toInt.toNat := by
  rw [wrap_of_nonneg x c h0]
  exact clamp_of_lt x N h0 hN

/-- The clamped start index as a coordinate: when the index word reads as the coordinate n, the clamped coordinate is n. -/
theorem clamp_fin_eq {N : Nat} (z : Int) (n : Fin N) (h : z = (n.val : Int)) (hlt : min z.toNat (N - 1) < N) :
    (⟨min z.toNat (N - 1), hlt⟩ : Fin N) = n := by
  refine Fin.ext ?_
  show min z.toNat (N - 1) = n.val
  have := n.isLt
  omega

end Pegcn.Lib

end
-- ==== Proof.RefValue.lean ====
/-
  The reference program's result is the specification's output.

  The reference computes, twice over the same edge list, the mean of the neighbours' rows through one weight matrix plus the
  node's own row through another plus a bias; the first layer is rectified. Each gather reads the row named by the clamped
  source word; each accumulating scatter adds, to the zero word, the updates whose destination word reads the row. Read at an
  index, every stage of the program is the corresponding term of the specification.
-/
import proofs.«173106_j12781822673112_2_alg».proof.Proof.Gen.ReferenceIdeal.Read
import proofs.«173106_j12781822673112_2_alg».proof.Proof.GraphMeanSpec
import proofs.«173106_j12781822673112_2_alg».proof.Proof.LibGatherScatter

noncomputable section

open scoped BigOperators

namespace Cert.ReferenceIdeal.RefValue

open Cert.ReferenceIdeal Cert.ReferenceIdeal.Read Idealize.ShloMosaic Idealize.ShloMosaic.ValueIdx

/-! ## Sums over the index type of a one-axis array -/

/-- A rank-1 index set is its one coordinate range … -/
def idxEquiv1 {n : Nat} : (⟨1, ![n]⟩ : Shape).Idx ≃ Fin n where
  toFun j := j 0
  invFun e := ix1 e
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ e : Fin n, f (ix1 e) :=
  (Equiv.sum_comp (idxEquiv1 (n := n)).symm f).symm

/-! ## The two scatters of one layer -/

/-- The accumulating row scatter of this program, read at (p, k). -/
theorem scatter2_read (dc : GraphMean.Col 1600000)
    (z : FVec Ideal S100000x128 .f32) (u : FVec Ideal S1600000x128 .f32) (p : Fin 100000) (k : Fin 128) :
    Host.scatterAdd scatter_S100000x128_S1600000x1_S1600000x128_1_0_0_1 z dc u (ix2 p k)
      = z (ix2 p k) + ∑ j ∈ Finset.univ.filter
          (fun j : (⟨2, ![1600000, 128]⟩ : Shape).Idx =>
            (dc (ix2 (j 0) 0)).toInt = (p.val : Int) ∧ (j 1).val = k.val), u j :=
  Pegcn.Lib.scatterAdd2_apply (N := 100000) (E := 1600000) (C := 128)
    scatter_S100000x128_S1600000x1_S1600000x128_1_0_0_1 rfl rfl rfl rfl z dc u p k

/-- The row gather of this program, read at (e, k): column k of the row the clamped source word of edge e names. -/
theorem gather2_read (sc : GraphMean.Col 1600000) (h : GraphMean.Mat 100000 128) (e : Fin 1600000) (k : Fin 128) :
    Host.gather gather_S100000x128_S1600000x1_S1600000x128_1_0_n_n_0_1_1128 h sc (ix2 e k)
      = h (ix2 (GraphMean.srcRow (n := 100000) (by decide) sc e) k) :=
  Pegcn.Lib.gather2_apply (N := 100000) (E := 1600000) (C := 128) (by decide)
    gather_S100000x128_S1600000x1_S1600000x128_1_0_n_n_0_1_1128 rfl rfl rfl rfl rfl rfl h sc e k

/-- The accumulating scatter of a flat array of this program, read at p. -/
theorem scatter1_read (dc : GraphMean.Col 1600000)
    (z : FVec Ideal S100000 .f32) (u : FVec Ideal S1600000 .f32) (p : Fin 100000) :
    Host.scatterAdd scatter_S100000_S1600000x1_S1600000_n_0_0_1 z dc u (ix1 p)
      = z (ix1 p) + ∑ j ∈ Finset.univ.filter
          (fun j : (⟨1, ![1600000]⟩ : Shape).Idx => (dc (ix2 (j 0) 0)).toInt = (p.val : Int)), u j :=
  Pegcn.Lib.scatterAdd1_apply (N := 100000) (E := 1600000)
    scatter_S100000_S1600000x1_S1600000_n_0_0_1 rfl rfl rfl rfl z dc u p

/-- The rows gathered at the source column and accumulated into zeros at the destination column, read at (p, k): the sum
    over the edges into p of column k of the source's row. -/
theorem agg_read (sc dc : GraphMean.Col 1600000) (h : GraphMean.Mat 100000 128)
    (z : FVec Ideal S100000x128 .f32) (hz : ∀ i, z i = GraphMean.zeroW) (p : Fin 100000) (k : Fin 128) :
    Host.scatterAdd scatter_S100000x128_S1600000x1_S1600000x128_1_0_0_1 z dc
        (Host.gather gather_S100000x128_S1600000x1_S1600000x128_1_0_n_n_0_1_1128 h sc) (ix2 p k)
      = GraphMean.aggAt (n := 100000) (by decide) sc dc h p k := by
  refine (scatter2_read dc z _ p k).trans ?_
  rw [hz]
  unfold GraphMean.aggAt GraphMean.segSum
  refine congrArg (fun t => GraphMean.zeroW + t) ?_
  refine (GraphMean.sum_pairs_eq_sum_rows dc (p.val : Int) k _).trans ?_
  refine Finset.sum_congr rfl fun e _ => ?_
  exact gather2_read sc h e k

/-- Ones accumulated into zeros at the destination column, read at p: the number of edges into p as a sum of ones. -/
theorem cnt_read (dc : GraphMean.Col 1600000) (z : FVec Ideal S100000 .f32) (hz : ∀ i, z i = GraphMean.zeroW)
    (o : FVec Ideal S1600000 .f32) (ho : ∀ i, o i = GraphMean.oneW) (p : Fin 100000) :
    Host.scatterAdd scatter_S100000_S1600000x1_S1600000_n_0_0_1 z dc o (ix1 p) = GraphMean.cntAt dc p := by
  refine (scatter1_read dc z o p).trans ?_
  rw [hz]
  unfold GraphMean.cntAt GraphMean.segSum
  refine congrArg (fun t => GraphMean.zeroW + t) ?_
  rw [Finset.sum_filter, Finset.sum_filter, sum_idx1]
  refine Finset.sum_congr rfl fun e _ => ?_
  rw [ho]

/-! ## The two index columns

The program builds the source column and the destination column once per use; every copy is the same term. -/

theorem src_again (x1 : (⟨S2x1600000, .i32⟩ : BufTy).Contents (Elt Ideal)) : val_main_v35 (F := Ideal) x1 = val_main_v9 (F := Ideal) x1 := rfl
theorem dst_again16 (x1 : (⟨S2x1600000, .i32⟩ : BufTy).Contents (Elt Ideal)) : val_main_v16 (F := Ideal) x1 = val_main_v12 (F := Ideal) x1 := rfl
theorem dst_again38 (x1 : (⟨S2x1600000, .i32⟩ : BufTy).Contents (Elt Ideal)) : val_main_v38 (F := Ideal) x1 = val_main_v12 (F := Ideal) x1 := rfl
theorem dst_again42 (x1 : (⟨S2x1600000, .i32⟩ : BufTy).Contents (Elt Ideal)) : val_main_v42 (F := Ideal) x1 = val_main_v12 (F := Ideal) x1 := rfl

/-! ## The first layer -/

/-- The first layer's neighbour sums, read at (p, k). -/
theorem agg1_read (x0 : (⟨S100000x128, .f32⟩ : BufTy).Contents (Elt Ideal)) (x1 : (⟨S2x1600000, .i32⟩ : BufTy).Contents (Elt Ideal)) (p : Fin 100000) (k : Fin 128) :
    val_main_v13 (F := Ideal) x0 x1 (ix2 p k)
      = GraphMean.aggAt (n := 100000) (by decide) (val_main_v9 (F := Ideal) x1) (val_main_v12 (F := Ideal) x1) x0 p k := by
  unfold val_main_v13 val_main_v10
  exact agg_read _ _ x0 _ (fun i => by rw [val_main_v11_apply, val_main_cst_apply]; rfl) p k

/-- The first layer's in-degrees, read at p. -/
theorem cnt1_read (x1 : (⟨S2x1600000, .i32⟩ : BufTy).Contents (Elt Ideal)) (p : Fin 100000) :
    val_main_v17 (F := Ideal) x1 (ix1 p) = GraphMean.cntAt (val_main_v12 (F := Ideal) x1) p := by
  unfold val_main_v17
  rw [dst_again16]
  exact cnt_read _ _ (fun i => by rw [val_main_v15_apply, val_main_cst_2_apply]; rfl) _
    (fun i => by rw [val_main_v14_apply, val_main_cst_1_apply]; rfl) p

/-- The first layer's unit (p, q) before the rectifier. -/
theorem unit1_read (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (p : Fin 100000) (q : Fin 128) :
    val_main_v28 (F := Ideal) x0 x1 x2 x3 x4 (ix2 p q)
      = GraphMean.unitAt (GraphMean.aggAt (n := 100000) (by decide) (val_main_v9 (F := Ideal) x1) (val_main_v12 (F := Ideal) x1) x0)
          (GraphMean.cntAt (val_main_v12 (F := Ideal) x1)) x0 x2 x3 x4 p q := by
  rw [val_main_v28_apply, val_main_v25_apply, val_main_v23_apply, val_main_v24_apply, val_main_v27_apply,
    val_main_v26_apply]
  unfold GraphMean.unitAt
  simp only [Ideal.addf_def]
  refine congrArg₂ (· + ·) (congrArg₂ (· + ·) ?_ ?_) ?_
  · refine Finset.sum_congr rfl fun k _ => ?_
    have hl : lidx_main_v23 (ix2 p q) k = ix2 p k := funext fun a => Fin.ext (by match a with | ⟨0, _⟩ => rfl | ⟨1, _⟩ => rfl)
    have hr : ridx_main_v23 (ix2 p q) k = ix2 k q := funext fun a => Fin.ext (by match a with | ⟨0, _⟩ => rfl | ⟨1, _⟩ => rfl)
    rw [hl, hr, val_main_v22_apply, Ideal.hostDivf_def]
    refine congrArg₂ (· * ·) (congrArg₂ Ideal.div ?_ ?_) rfl
    · exact agg1_read x0 x1 p k
    · have hi : idx_main_v20 (idx_main_v21 (ix2 p k)) = ix1 p := funext fun a => Fin.ext (by match a with | ⟨0, _⟩ => rfl)
      rw [val_main_v21_apply, val_main_v20_apply, val_main_v19_apply, Ideal.maximumf_def, hi, cnt1_read,
        val_main_v18_apply, val_main_cst_3_apply]
      rfl
  · refine Finset.sum_congr rfl fun k _ => ?_
    have hl : lidx_main_v24 (ix2 p q) k = ix2 p k := funext fun a => Fin.ext (by match a with | ⟨0, _⟩ => rfl | ⟨1, _⟩ => rfl)
    have hr : ridx_main_v24 (ix2 p q) k = ix2 k q := funext fun a => Fin.ext (by match a with | ⟨0, _⟩ => rfl | ⟨1, _⟩ => rfl)
    rw [hl, hr]
  · exact congrArg x4 (funext fun a => Fin.ext (by match a with | ⟨0, _⟩ => rfl))

/-- The first layer's result at (p, q): the unit, rectified. -/
theorem hidden_read_at (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (p : Fin 100000) (q : Fin 128) :
    val_main_v29 (F := Ideal) x0 x1 x2 x3 x4 (ix2 p q)
      = GraphMean.hiddenAt (n := 100000) (by decide) (val_main_v9 (F := Ideal) x1) (val_main_v12 (F := Ideal) x1) x0 x2 x3 x4 p q := by
  rw [val_main_v29_apply, unit1_read, val_main_call0_v0_apply, val_main_call0_cst_apply, Ideal.maximumf_def]
  rfl

/-- The first layer's result as a whole array. -/
theorem hidden_read (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) :
    val_main_v29 (F := Ideal) x0 x1 x2 x3 x4
      = GraphMean.hidden (n := 100000) (by decide) (val_main_v9 (F := Ideal) x1) (val_main_v12 (F := Ideal) x1) x0 x2 x3 x4 := by
  funext i
  obtain ⟨p, q, rfl⟩ : ∃ (p : Fin 100000) (q : Fin 128), i = ix2 p q := ⟨i 0, i 1, eq_ix2 i⟩
  exact hidden_read_at x0 x1 x2 x3 x4 p q

/-! ## The second layer -/

/-- The second layer's neighbour sums, read at (p, k): the same edges, the first layer's result as the features. -/
theorem agg2_read (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (p : Fin 100000) (k : Fin 128) :
    val_main_v39 (F := Ideal) x0 x1 x2 x3 x4 (ix2 p k)
      = GraphMean.aggAt (n := 100000) (by decide) (val_main_v9 (F := Ideal) x1) (val_main_v12 (F := Ideal) x1) (val_main_v29 (F := Ideal) x0 x1 x2 x3 x4) p k := by
  unfold val_main_v39 val_main_v36
  rw [src_again, dst_again38]
  exact agg_read _ _ (val_main_v29 (F := Ideal) x0 x1 x2 x3 x4) _ (fun i => by rw [val_main_v37_apply, val_main_cst_6_apply]; rfl) p k

/-- The second layer's in-degrees, read at p. -/
theorem cnt2_read (x1 : (⟨S2x1600000, .i32⟩ : BufTy).Contents (Elt Ideal)) (p : Fin 100000) :
    val_main_v43 (F := Ideal) x1 (ix1 p) = GraphMean.cntAt (val_main_v12 (F := Ideal) x1) p := by
  unfold val_main_v43
  rw [dst_again42]
  exact cnt_read _ _ (fun i => by rw [val_main_v41_apply, val_main_cst_8_apply]; rfl) _
    (fun i => by rw [val_main_v40_apply, val_main_cst_7_apply]; rfl) p

/-- The second layer's unit (p, q). -/
theorem unit2_read (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x64, .f32⟩ : BufTy).Contents (Elt Ideal)) (x7 : (⟨S64, .f32⟩ : BufTy).Contents (Elt Ideal)) (p : Fin 100000) (q : Fin 64) :
    val_main_v54 (F := Ideal) x0 x1 x2 x3 x4 x5 x6 x7 (ix2 p q)
      = GraphMean.unitAt (GraphMean.aggAt (n := 100000) (by decide) (val_main_v9 (F := Ideal) x1) (val_main_v12 (F := Ideal) x1) (val_main_v29 (F := Ideal) x0 x1 x2 x3 x4))
          (GraphMean.cntAt (val_main_v12 (F := Ideal) x1)) (val_main_v29 (F := Ideal) x0 x1 x2 x3 x4) x5 x6 x7 p q := by
  rw [val_main_v54_apply, val_main_v51_apply, val_main_v49_apply, val_main_v50_apply, val_main_v53_apply,
    val_main_v52_apply]
  unfold GraphMean.unitAt
  simp only [Ideal.addf_def]
  refine congrArg₂ (· + ·) (congrArg₂ (· + ·) ?_ ?_) ?_
  · refine Finset.sum_congr rfl fun k _ => ?_
    have hl : lidx_main_v49 (ix2 p q) k = ix2 p k := funext fun a => Fin.ext (by match a with | ⟨0, _⟩ => rfl | ⟨1, _⟩ => rfl)
    have hr : ridx_main_v49 (ix2 p q) k = ix2 k q := funext fun a => Fin.ext (by match a with | ⟨0, _⟩ => rfl | ⟨1, _⟩ => rfl)
    rw [hl, hr, val_main_v48_apply, Ideal.hostDivf_def]
    refine congrArg₂ (· * ·) (congrArg₂ Ideal.div ?_ ?_) rfl
    · exact agg2_read x0 x1 x2 x3 x4 p k
    · have hi : idx_main_v46 (idx_main_v47 (ix2 p k)) = ix1 p := funext fun a => Fin.ext (by match a with | ⟨0, _⟩ => rfl)
      rw [val_main_v47_apply, val_main_v46_apply, val_main_v45_apply, Ideal.maximumf_def, hi, cnt2_read,
        val_main_v44_apply, val_main_cst_9_apply]
      rfl
  · refine Finset.sum_congr rfl fun k _ => ?_
    have hl : lidx_main_v50 (ix2 p q) k = ix2 p k := funext fun a => Fin.ext (by match a with | ⟨0, _⟩ => rfl | ⟨1, _⟩ => rfl)
    have hr : ridx_main_v50 (ix2 p q) k = ix2 k q := funext fun a => Fin.ext (by match a with | ⟨0, _⟩ => rfl | ⟨1, _⟩ => rfl)
    rw [hl, hr]
  · exact congrArg x7 (funext fun a => Fin.ext (by match a with | ⟨0, _⟩ => rfl))

/-! ## The whole result -/

/-- The reference program's result is the specification's output over the program's own two index columns. -/
theorem result_is_output (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x64, .f32⟩ : BufTy).Contents (Elt Ideal)) (x7 : (⟨S64, .f32⟩ : BufTy).Contents (Elt Ideal)) :
    val_main_v54 (F := Ideal) x0 x1 x2 x3 x4 x5 x6 x7
      = GraphMean.output (n := 100000) (E := 1600000) (by decide) (val_main_v9 (F := Ideal) x1) (val_main_v12 (F := Ideal) x1) x0 x2 x3 x4 x5 x6 x7 := by
  funext i
  obtain ⟨p, q, rfl⟩ : ∃ (p : Fin 100000) (q : Fin 64), i = ix2 p q := ⟨i 0, i 1, eq_ix2 i⟩
  rw [GraphMean.output_apply, unit2_read]
  unfold GraphMean.outputAt
  rw [hidden_read]

end Cert.ReferenceIdeal.RefValue

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«173106_j12781822673112_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibScalarHeadTile.lean ====
/-
  A two-stage linear head on ONE scalar per row, computed inside a tile and read at an entry.

  A tile holds one scalar per row: an [a, 1] column x. The body repeats the column over h lanes, multiplies it by a
  [1, h] weight row w₁ repeated down the rows, adds a [1, h] bias row b₁ repeated likewise, narrows the [a, h]
  result and an [h, n] weight matrix w₂ to a shorter float format, multiplies the two on the matrix unit into the
  zero accumulator, and adds a [1, n] bias row b₂ repeated down the rows.

  On the extended reals a change of float format is the identity and the matrix unit's contraction into zero is the
  plain sum over the contracted axis, so entry (p, q) of the result is

      (∑ k, (x (p, 0) * w₁ (0, k) + b₁ (0, k)) * w₂ (k, q)) + b₂ (0, q)

  for all extents a, h, n, any narrower format, and any printed record of the plain matrix product. No
  finiteness is used: nothing is distributed or cancelled.

  Two layout facts the statement needs are here as well: an [a, 1] column repeated over b lanes reads, at (r, c),
  the column's entry r; and an [a] vector recast to an [a, 1] column reads, at (r, u), the vector's entry r.
-/
import proofs.«173106_j12781822673112_2_alg».proof.Proof.LibDotRecord
import Idealize.ShloMosaic.Lib.ValueLayout

namespace ScalarHead

open Idealize.ShloMosaic Idealize.ShloMosaic.ValueIdx

/-- A column [a, 1] repeated over [a, b] reads, at (r, c), the column's entry r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- An [a] vector recast to an [a, 1] column reads, at (r, u), the vector's entry r, whatever the unit
    coordinate u: row-major position r · 1 + 0 is r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The tile's result at entry (p, q): the hidden row of p — its scalar times the weight row plus the bias row —
    contracted with column q of the second weight matrix, plus the second bias at q. -/
theorem tile_apply {a h n : ℕ} {ψ : FTy}
    (d : DotDims ⟨2, ![a, h]⟩ ⟨2, ![h, n]⟩ ⟨2, ![a, n]⟩)
    (h1 : d.lhsContracting = [1]) (h2 : d.rhsContracting = [0]) (h3 : d.lhsNonContracting = [0])
    (h4 : d.rhsNonContracting = [1]) (h5 : d.lhsBatch = []) (h6 : d.rhsBatch = [])
    (hx : (⟨2, ![a, 1]⟩ : Shape).Broadcasts ⟨2, ![a, h]⟩) (hr : (⟨2, ![1, h]⟩ : Shape).Broadcasts ⟨2, ![a, h]⟩)
    (hb : (⟨2, ![1, n]⟩ : Shape).Broadcasts ⟨2, ![a, n]⟩) (hψ : ψ.bits < FTy.bits .f32)
    (x : FVec Ideal ⟨2, ![a, 1]⟩ .f32) (w₁ b₁ : FVec Ideal ⟨2, ![1, h]⟩ .f32) (w₂ : FVec Ideal ⟨2, ![h, n]⟩ .f32)
    (b₂ : FVec Ideal ⟨2, ![1, n]⟩ .f32) (prec : Option ContractPrecision) (p : Fin a) (q : Fin n) :
    addf (matmul d prec
            (truncf ψ (addf (mulf (broadcastTo ⟨2, ![a, h]⟩ x hx) (broadcastTo ⟨2, ![a, h]⟩ w₁ hr))
                            (broadcastTo ⟨2, ![a, h]⟩ b₁ hr)) hψ)
            (truncf ψ w₂ hψ) (constant (F := Ideal) ⟨2, ![a, n]⟩ .f32 0x00000000#32))
         (broadcastTo ⟨2, ![a, n]⟩ b₂ hb) (ix2 p q)
      = (∑ k : Fin h, (x (ix2 p (0 : Fin 1)) * w₁ (ix2 (0 : Fin 1) k) + b₁ (ix2 (0 : Fin 1) k)) * w₂ (ix2 k q))
          + b₂ (ix2 (0 : Fin 1) q) := by
  rw [addf_apply]
  refine congrArg₂ (· + ·) ?_ (broadcastTo_1b_ab_apply b₂ hb p q)
  refine (DotRecord.matmul_zero_apply d h1 h2 h3 h4 h5 h6 _ _ prec p q).trans ?_
  refine Finset.sum_congr rfl fun k _ => ?_
  rw [truncf_apply, truncf_apply, addf_apply, mulf_apply, broadcastTo_a1_ab_apply, broadcastTo_1b_ab_apply,
    broadcastTo_1b_ab_apply]

end ScalarHead
-- ==== Proof.BodyValue.lean ====
/-
  The arithmetic of one mean-aggregation layer's tile body, read at one entry.

  Each of the two bodies takes a column c of in-degrees, a tile x of summed neighbour rows, a tile y of the nodes' own
  rows, a stacked weight matrix W of d + d rows and a bias row b. It scales row p of x by the reciprocal 1 / max(c p, 1),
  lays the scaled tile and y end to end along the columns, multiplies the joined [a, d + d] tile by W on the matrix unit
  into the zero accumulator, and adds the bias row repeated down the rows; the first body then takes the maximum with 0.

  At entry (p, q) the result is therefore one contraction over the d + d joined columns,

      (sum over k of cat k * w k) + b (0, q),

  where cat reads x (p, k) * (1 / max(c (p, 0), 1)) on the first d positions and y (p, k) on the last d, and w is
  column q of W. Nothing is distributed or cancelled, so no entry need be finite.
-/
import proofs.«173106_j12781822673112_2_alg».proof.Proof.Gen.KernelIdeal.Skeleton
import proofs.«173106_j12781822673112_2_alg».proof.Proof.GraphMeanSpec
import proofs.«173106_j12781822673112_2_alg».proof.Proof.LibDotRecord
import proofs.«173106_j12781822673112_2_alg».proof.Proof.LibScalarHeadTile

noncomputable section

open scoped BigOperators

namespace Cert.KernelIdeal.BodyValue

open Cert.KernelIdeal Cert.KernelIdeal.Gen Idealize.ShloMosaic Idealize.ShloMosaic.ValueIdx GraphMean

/-! ## Two matrices laid end to end along the columns -/

/-- `[a, c₁]` and `[a, c₂]` joined along axis 1 into `[a, w]`, at a column inside the first piece. -/
theorem cat2_left {α : Type} {a c₁ c₂ w : ℕ} (x₁ : (⟨2, ![a, c₁]⟩ : Shape).Idx → α) (x₂ : (⟨2, ![a, c₂]⟩ : Shape).Idx → α)
    (h : Shape.Concatenates [⟨2, ![a, c₁]⟩, ⟨2, ![a, c₂]⟩] ⟨2, ![a, w]⟩ (1 : Fin 2))
    (p : Fin a) (k : Fin w) (hk : k.val < c₁) :
    concatenate ⟨2, ![a, w]⟩ (1 : Fin 2) [⟨⟨2, ![a, c₁]⟩, x₁⟩, ⟨⟨2, ![a, c₂]⟩, x₂⟩] h (ix2 p k)
      = x₁ (ix2 p ⟨k.val, hk⟩) := by
  refine concatenate_pair_apply_left (t := ⟨2, ![a, w]⟩) (s₁ := ⟨2, ![a, c₁]⟩) (s₂ := ⟨2, ![a, c₂]⟩) (1 : Fin 2) x₁ x₂ h
    (ix2 p k) rfl (ix2 p ⟨k.val, hk⟩) fun d => ?_
  match d with
  | ⟨0, _⟩ => rfl
  | ⟨1, _⟩ => rfl

/-- The same at a column past the first piece: the second piece at the column less `c₁`. -/
theorem cat2_right {α : Type} {a c₁ c₂ w : ℕ} (x₁ : (⟨2, ![a, c₁]⟩ : Shape).Idx → α) (x₂ : (⟨2, ![a, c₂]⟩ : Shape).Idx → α)
    (h : Shape.Concatenates [⟨2, ![a, c₁]⟩, ⟨2, ![a, c₂]⟩] ⟨2, ![a, w]⟩ (1 : Fin 2))
    (p : Fin a) (k : Fin w) (hk : c₁ ≤ k.val) (hk₂ : k.val - c₁ < c₂) :
    concatenate ⟨2, ![a, w]⟩ (1 : Fin 2) [⟨⟨2, ![a, c₁]⟩, x₁⟩, ⟨⟨2, ![a, c₂]⟩, x₂⟩] h (ix2 p k)
      = x₂ (ix2 p ⟨k.val - c₁, hk₂⟩) := by
  refine concatenate_pair_apply_right (t := ⟨2, ![a, w]⟩) (s₁ := ⟨2, ![a, c₁]⟩) (s₂ := ⟨2, ![a, c₂]⟩) (1 : Fin 2) x₁ x₂ h
    (ix2 p k) rfl rfl (ix2 p ⟨k.val - c₁, hk₂⟩) (fun d hd => ?_) ?_
  · match d with
    | ⟨0, _⟩ => rfl
    | ⟨1, _⟩ => exact absurd rfl hd
  · show k.val - c₁ + c₁ = k.val
    omega

/-- Two `[a, d]` tiles joined into `[a, d + d]`, at the first half's column `k`. -/
theorem cat2_castAdd {α : Type} {a d : ℕ} (x₁ x₂ : (⟨2, ![a, d]⟩ : Shape).Idx → α)
    (h : Shape.Concatenates [⟨2, ![a, d]⟩, ⟨2, ![a, d]⟩] ⟨2, ![a, d + d]⟩ (1 : Fin 2)) (p : Fin a) (k : Fin d) :
    concatenate ⟨2, ![a, d + d]⟩ (1 : Fin 2) [⟨⟨2, ![a, d]⟩, x₁⟩, ⟨⟨2, ![a, d]⟩, x₂⟩] h (ix2 p (Fin.castAdd d k))
      = x₁ (ix2 p k) :=
  cat2_left x₁ x₂ h p (Fin.castAdd d k) k.isLt

/-- … and at the second half's column `k`. -/
theorem cat2_natAdd {α : Type} {a d : ℕ} (x₁ x₂ : (⟨2, ![a, d]⟩ : Shape).Idx → α)
    (h : Shape.Concatenates [⟨2, ![a, d]⟩, ⟨2, ![a, d]⟩] ⟨2, ![a, d + d]⟩ (1 : Fin 2)) (p : Fin a) (k : Fin d) :
    concatenate ⟨2, ![a, d + d]⟩ (1 : Fin 2) [⟨⟨2, ![a, d]⟩, x₁⟩, ⟨⟨2, ![a, d]⟩, x₂⟩] h (ix2 p (Fin.natAdd d k))
      = x₂ (ix2 p k) := by
  have hk : d ≤ (Fin.natAdd d k).val := Nat.le_add_right d k.val
  have hk₂ : (Fin.natAdd d k).val - d < d := by
    show d + k.val - d < d
    have := k.isLt; omega
  refine (cat2_right x₁ x₂ h p (Fin.natAdd d k) hk hk₂).trans (congrArg x₂ (congrArg (ix2 p) (Fin.ext ?_)))
  show d + k.val - d = k.val
  omega

/-! ## One layer's tile body at an entry -/

/-- Row `p` of the joined tile and column `q` of the stacked weights, with the body's value at `(p, q)` before any
    rectifier: the contraction of the two over the `d + d` joined columns, plus the bias at `q`. -/
theorem layer_at {a d o : ℕ}
    (dd : DotDims ⟨2, ![a, d + d]⟩ ⟨2, ![d + d, o]⟩ ⟨2, ![a, o]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (hc : Shape.Concatenates [⟨2, ![a, d]⟩, ⟨2, ![a, d]⟩] ⟨2, ![a, d + d]⟩ (1 : Fin 2))
    (hx : (⟨2, ![a, 1]⟩ : Shape).Broadcasts ⟨2, ![a, d]⟩) (hb : (⟨2, ![1, o]⟩ : Shape).Broadcasts ⟨2, ![a, o]⟩)
    (c : FVec Ideal ⟨2, ![a, 1]⟩ .f32) (x y : FVec Ideal ⟨2, ![a, d]⟩ .f32) (W : FVec Ideal ⟨2, ![d + d, o]⟩ .f32)
    (b : FVec Ideal ⟨2, ![1, o]⟩ .f32) (prec : Option ContractPrecision) (p : Fin a) (q : Fin o) :
    ∃ cat w : Fin (d + d) → EReal,
      (∀ k : Fin d, cat (Fin.castAdd d k) = x (ix2 p k) * Ideal.div oneW (max (c (ix2 p (0 : Fin 1))) oneW)) ∧
      (∀ k : Fin d, cat (Fin.natAdd d k) = y (ix2 p k)) ∧
      (∀ k : Fin d, w (Fin.castAdd d k) = W (ix2 (Fin.castAdd d k) q)) ∧
      (∀ k : Fin d, w (Fin.natAdd d k) = W (ix2 (Fin.natAdd d k) q)) ∧
      addf (matmul dd prec
          (concatenate ⟨2, ![a, d + d]⟩ (1 : Fin 2)
            [⟨⟨2, ![a, d]⟩, mulf x (broadcastTo ⟨2, ![a, d]⟩
                (divf (broadcast ⟨2, ![a, 1]⟩ (Scalar.ofBits (F := Ideal) .f32 0x3F800000#32))
                  (maximumf c (broadcast ⟨2, ![a, 1]⟩ (Scalar.ofBits (F := Ideal) .f32 0x3F800000#32)))) hx)⟩,
             ⟨⟨2, ![a, d]⟩, y⟩] hc)
          W (constant (F := Ideal) ⟨2, ![a, o]⟩ .f32 0x00000000#32))
        (broadcastTo ⟨2, ![a, o]⟩ b hb) (ix2 p q)
      = (∑ k : Fin (d + d), cat k * w k) + b (ix2 (0 : Fin 1) q) := by
  refine ⟨fun k => concatenate ⟨2, ![a, d + d]⟩ (1 : Fin 2)
            [⟨⟨2, ![a, d]⟩, mulf x (broadcastTo ⟨2, ![a, d]⟩
                (divf (broadcast ⟨2, ![a, 1]⟩ (Scalar.ofBits (F := Ideal) .f32 0x3F800000#32))
                  (maximumf c (broadcast ⟨2, ![a, 1]⟩ (Scalar.ofBits (F := Ideal) .f32 0x3F800000#32)))) hx)⟩,
             ⟨⟨2, ![a, d]⟩, y⟩] hc (ix2 p k),
    fun k => W (ix2 k q), fun k => ?_, fun k => ?_, fun _ => rfl, fun _ => rfl, ?_⟩
  · refine (cat2_castAdd _ _ hc p k).trans ?_
    rw [mulf_apply, ScalarHead.broadcastTo_a1_ab_apply]
    rfl
  · exact cat2_natAdd _ _ hc p k
  · rw [addf_apply]
    exact congrArg₂ (· + ·) (DotRecord.matmul_zero_apply dd h1 h2 h3 h4 h5 h6 _ _ prec p q)
      (DotRecord.broadcastTo_1b_ab_apply b hb p q)

/-! ## The two bodies -/

/-- The first body's stored tile at entry `(p, q)`: the layer's contraction plus the bias, rectified against the zero
    word. -/
theorem pay0_at (v0 : Vec Ideal S10000x1 .f32) (v6 v10 : Vec Ideal S10000x128 .f32) (v12 : Vec Ideal S256x128 .f32)
    (v15 : Vec Ideal S1x128 .f32) (p : Fin 10000) (q : Fin 128) :
    ∃ cat w : Fin (128 + 128) → EReal,
      (∀ k : Fin 128, cat (Fin.castAdd 128 k) = v6 (ix2 p k) * Ideal.div oneW (max (v0 (ix2 p 0)) oneW)) ∧
      (∀ k : Fin 128, cat (Fin.natAdd 128 k) = v10 (ix2 p k)) ∧
      (∀ k : Fin 128, w (Fin.castAdd 128 k) = v12 (ix2 (Fin.castAdd 128 k) q)) ∧
      (∀ k : Fin 128, w (Fin.natAdd 128 k) = v12 (ix2 (Fin.natAdd 128 k) q)) ∧
      k0_pay1 (F := Ideal) v0 v6 v10 v12 v15 (ix2 p q)
        = max ((∑ k : Fin (128 + 128), cat k * w k) + v15 (ix2 0 q)) zeroW := by
  obtain ⟨cat, w, hcl, hcr, hwl, hwr, hv⟩ := layer_at (a := 10000) (d := 128) (o := 128)
    dot_S10000x256_S256x128_S10000x128_1_0_0_1_n_n rfl rfl rfl rfl rfl rfl
    concatenates_S10000x128_S10000x128_S10000x256_d1 broadcasts_S10000x1_S10000x128 broadcasts_S1x128_S10000x128
    (shapeCast S10000x1 v0 shapeCasts_S10000x1_S10000x1) (shapeCast S10000x128 v6 shapeCasts_S10000x128_S10000x128) v10
    (shapeCast S256x128 v12 shapeCasts_S256x128_S256x128) (shapeCast S1x128 v15 shapeCasts_S1x128_S1x128) none p q
  have e0 := shapeCast_self v0 shapeCasts_S10000x1_S10000x1
  have e6 := shapeCast_self v6 shapeCasts_S10000x128_S10000x128
  have e12 := shapeCast_self v12 shapeCasts_S256x128_S256x128
  have e15 := shapeCast_self v15 shapeCasts_S1x128_S1x128
  refine ⟨cat, w, fun k => ?_, hcr, fun k => ?_, fun k => ?_, ?_⟩
  · rw [hcl k, e6, e0]
  · rw [hwl k, e12]
  · rw [hwr k, e12]
  · unfold k0_pay1
    refine (congrArg (fun t => max t zeroW) hv).trans ?_
    rw [e15]

/-- The second body's stored tile at entry `(p, q)`: the same contraction plus the bias, with no rectifier. -/
theorem pay1_at (v0 : Vec Ideal S10000x1 .f32) (v6 v10 : Vec Ideal S10000x128 .f32) (v13 : Vec Ideal S256x128 .f32)
    (v16 : Vec Ideal S1x128 .f32) (p : Fin 10000) (q : Fin 128) :
    ∃ cat w : Fin (128 + 128) → EReal,
      (∀ k : Fin 128, cat (Fin.castAdd 128 k) = v6 (ix2 p k) * Ideal.div oneW (max (v0 (ix2 p 0)) oneW)) ∧
      (∀ k : Fin 128, cat (Fin.natAdd 128 k) = v10 (ix2 p k)) ∧
      (∀ k : Fin 128, w (Fin.castAdd 128 k) = v13 (ix2 (Fin.castAdd 128 k) q)) ∧
      (∀ k : Fin 128, w (Fin.natAdd 128 k) = v13 (ix2 (Fin.natAdd 128 k) q)) ∧
      k1_pay1 (F := Ideal) v0 v6 v10 v13 v16 (ix2 p q)
        = (∑ k : Fin (128 + 128), cat k * w k) + v16 (ix2 0 q) := by
  obtain ⟨cat, w, hcl, hcr, hwl, hwr, hv⟩ := layer_at (a := 10000) (d := 128) (o := 128)
    dot_S10000x256_S256x128_S10000x128_1_0_0_1_n_n rfl rfl rfl rfl rfl rfl
    concatenates_S10000x128_S10000x128_S10000x256_d1 broadcasts_S10000x1_S10000x128 broadcasts_S1x128_S10000x128
    (shapeCast S10000x1 v0 shapeCasts_S10000x1_S10000x1) (shapeCast S10000x128 v6 shapeCasts_S10000x128_S10000x128)
    (shapeCast S10000x128 v10 shapeCasts_S10000x128_S10000x128)
    (shapeCast S256x128 v13 shapeCasts_S256x128_S256x128) (shapeCast S1x128 v16 shapeCasts_S1x128_S1x128) none p q
  have e0 := shapeCast_self v0 shapeCasts_S10000x1_S10000x1
  have e6 := shapeCast_self v6 shapeCasts_S10000x128_S10000x128
  have e10 := shapeCast_self v10 shapeCasts_S10000x128_S10000x128
  have e13 := shapeCast_self v13 shapeCasts_S256x128_S256x128
  have e16 := shapeCast_self v16 shapeCasts_S1x128_S1x128
  refine ⟨cat, w, fun k => ?_, fun k => ?_, fun k => ?_, fun k => ?_, ?_⟩
  · rw [hcl k, e6, e0]
  · rw [hcr k, e10]
  · rw [hwl k, e13]
  · rw [hwr k, e13]
  · unfold k1_pay1
    refine hv.trans ?_
    rw [e16]

end Cert.KernelIdeal.BodyValue

end
-- ==== Proof.HostValue.lean ====
/-
  The host operations of the kernel program around its two launches, as functions of the arrays they read, each read
  at an entry.

  From the edge list the host cuts a source column (negative words wrapped by the node count) and a destination column.
  The first layer's neighbour sums come from ONE accumulating scatter over the feature table widened by a column of
  ones: columns 0..127 of the result are the summed rows, column 128 is the in-degree. The second layer scatters the
  first layer's result the same way, without the ones column. The weights of a layer are stacked along axis 0, the
  second layer's stack and bias being padded on the right with zeros up to 128 columns, and the final result is the
  first 64 columns of what the second launch leaves.

  Every change of float format is the identity on the extended reals, so a gathered row is the table's row, and a
  scatter's entry is the zero word plus the sum of the updates that land there.
-/
import proofs.«173106_j12781822673112_2_alg».proof.Proof.Gen.KernelIdeal
import proofs.«173106_j12781822673112_2_alg».proof.Proof.Gen.KernelIdeal.Launch
import proofs.«173106_j12781822673112_2_alg».proof.Proof.GraphMeanSpec
import proofs.«173106_j12781822673112_2_alg».proof.Proof.LibGatherScatter
import proofs.«173106_j12781822673112_2_alg».proof.Proof.LibMeanLayer
import Idealize.ShloMosaic.Lib.KernelVsHost
import Idealize.ShloMosaic.Lib.Pipeline.Value
import Idealize.ShloMosaic.Lib.ValueLayout
import Idealize.ShloMosaic.Lib.IdealHost

noncomputable section

open scoped BigOperators

namespace Cert.KernelIdeal.HostValue

open Cert.KernelIdeal
open Cert.KernelIdeal.Facts₀ Cert.KernelIdeal.Facts
open Idealize.ShloMosaic Idealize.ShloMosaic.ValueIdx
open GraphMean

/-! ## The index columns -/

/-- Row 0 of the edge list as a flat vector of words. -/
def srcFlat (ei : IVec S2x1600000 32) : IVec S1600000 32 :=
  shapeCast S1600000 (extractStridedSlice S1x1600000 ![0, 0] ei slices_S2x1600000_S1x1600000_0_0)
    shapeCasts_S1x1600000_S1600000

/-- Row 1 of the edge list as a flat vector of words. -/
def dstFlat (ei : IVec S2x1600000 32) : IVec S1600000 32 :=
  shapeCast S1600000 (extractStridedSlice S1x1600000 ![1, 0] ei slices_S2x1600000_S1x1600000_1_0)
    shapeCasts_S1x1600000_S1600000

/-- The source column: a word that reads negative has the node count added, the others are kept. -/
def srcCol (ei : IVec S2x1600000 32) : IVec S1600000x1 32 :=
  broadcastInDim S1600000x1 ![0] bcast_S1600000_S1600000x1_0
    (select (cmpi .slt (srcFlat ei) (broadcastInDim S1600000 ![] bcast_S_S1600000 (constantI S_ 32 0#32)))
      (addi (srcFlat ei) (broadcastInDim S1600000 ![] bcast_S_S1600000 (constantI S_ 32 100000#32)))
      (srcFlat ei))

/-- The destination column: the words as they are. -/
def dstCol (ei : IVec S2x1600000 32) : IVec S1600000x1 32 :=
  broadcastInDim S1600000x1 ![0] bcast_S1600000_S1600000x1_0 (dstFlat ei)

/-! ## The first layer's operands -/

/-- The feature table with a column of ones appended. -/
def withOnes (x : FVec Ideal S100000x128 .f32) : FVec Ideal S100000x129 .bf16 :=
  concatenate S100000x129 1
    [⟨S100000x128, truncf .bf16 x bitsLt_bf16_f32⟩,
     ⟨S100000x1, broadcastInDim S100000x1 ![] bcast_S_S100000x1 (constant (F := Ideal) S_ .bf16 0x3F80#16)⟩]
    concatenates_S100000x128_S100000x1_S100000x129_d1

/-- The rows of the widened table named by the source column, accumulated from zero at the rows the destination
    column names. -/
def summed (x : FVec Ideal S100000x128 .f32) (ei : IVec S2x1600000 32) : FVec Ideal S100000x129 .f32 :=
  Host.scatterAdd (F := Ideal) scatter_S100000x129_S1600000x1_S1600000x129_1_0_0_1
    (broadcastInDim S100000x129 ![] bcast_S_S100000x129 (constant (F := Ideal) S_ .f32 0x00000000#32))
    (dstCol ei)
    (extf .f32 (Host.gather gather_S100000x129_S1600000x1_S1600000x129_1_0_n_n_0_1_1129 (withOnes x) (srcCol ei))
      bitsLt_bf16_f32)

/-- The neighbour sums: the first 128 columns. -/
def agg1 (x : FVec Ideal S100000x128 .f32) (ei : IVec S2x1600000 32) : FVec Ideal S100000x128 .f32 :=
  extractStridedSlice S100000x128 ![0, 0] (summed x ei) slices_S100000x129_S100000x128_0_0

/-- The in-degree column: column 128. -/
def cntCol (x : FVec Ideal S100000x128 .f32) (ei : IVec S2x1600000 32) : FVec Ideal S100000x1 .f32 :=
  extractStridedSlice S100000x1 ![0, 128] (summed x ei) slices_S100000x129_S100000x1_0_128

/-- The first layer's two weight matrices stacked along axis 0. -/
def wcat1 (wl wr : FVec Ideal S128x128 .f32) : FVec Ideal S256x128 .f32 :=
  concatenate S256x128 0 [⟨S128x128, wl⟩, ⟨S128x128, wr⟩] concatenates_S128x128_S128x128_S256x128_d0

/-- The first layer's bias as one row. -/
def brow1 (b : FVec Ideal S128 .f32) : FVec Ideal S1x128 .f32 :=
  shapeCast S1x128 b shapeCasts_S128_S1x128

/-! ## The second layer's operands -/

/-- The rows of h named by the source column, accumulated from zero at the rows the destination column names. -/
def agg2 (h : FVec Ideal S100000x128 .f32) (ei : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (dstCol ei)
    (extf .f32 (Host.gather gather_S100000x128_S1600000x1_S1600000x128_1_0_n_n_0_1_1128
      (truncf .bf16 h bitsLt_bf16_f32) (srcCol ei)) bitsLt_bf16_f32)

/-- The second layer's two weight matrices stacked along axis 0, then padded on the right to 128 columns. -/
def wcat2 (wl wr : FVec Ideal S128x64 .f32) : FVec Ideal S256x128 .f32 :=
  pad S256x128 ![0, 0] ![0, 64] ![0, 0]
    (concatenate S256x64 0 [⟨S128x64, wl⟩, ⟨S128x64, wr⟩] concatenates_S128x64_S128x64_S256x64_d0)
    (sitofp (F := Ideal) .f32 (constantI S_ 32 0#32)) pads_S256x64_S256x128_000_0640 h_S_

/-- The second layer's bias padded to 128 entries, as one row. -/
def brow2 (b : FVec Ideal S64 .f32) : FVec Ideal S1x128 .f32 :=
  shapeCast S1x128 (pad S128 ![0] ![64] ![0] b (sitofp (F := Ideal) .f32 (constantI S_ 32 0#32)) pads_S64_S128_0640 h_S_)
    shapeCasts_S128_S1x128

/-- The result: the first 64 columns of what the second launch leaves. -/
def result (y : FVec Ideal S100000x128 .f32) : FVec Ideal S100000x64 .f32 :=
  extractStridedSlice S100000x64 ![0, 0] y slices_S100000x128_S100000x64_0_0

/-! ## The neighbour sums at an entry -/

/-- The second layer's scatter at (p, k): zero plus the sum over the edges into p of h at the edge's clamped source
    row, column k. -/
theorem agg2_apply (h : FVec Ideal S100000x128 .f32) (ei : IVec S2x1600000 32) (p : Fin 100000) (k : Fin 128) :
    agg2 h ei (ix2 p k) = aggAt (n := 100000) (by decide) (srcCol ei) (dstCol ei) h p k := by
  unfold agg2
  refine (Pegcn.Lib.scatterAdd2_apply scatter_S100000x128_S1600000x1_S1600000x128_1_0_0_1 rfl rfl rfl rfl _ _ _ p k).trans ?_
  unfold aggAt segSum
  refine congrArg₂ (· + ·) rfl ?_
  refine (sum_pairs_eq_sum_rows (dstCol ei) (p.val : Int) k _).trans ?_
  refine Finset.sum_congr rfl fun e _ => ?_
  exact Pegcn.Lib.gather2_apply (by decide) gather_S100000x128_S1600000x1_S1600000x128_1_0_n_n_0_1_1128
    rfl rfl rfl rfl rfl rfl (truncf .bf16 h bitsLt_bf16_f32) (srcCol ei) e k

/-- The first layer's scatter at (p, c), for any of the 129 columns: zero plus the sum over the edges into p of the
    widened table at the edge's clamped source row, column c. -/
theorem summed_apply (x : FVec Ideal S100000x128 .f32) (ei : IVec S2x1600000 32) (p : Fin 100000) (c : Fin 129) :
    summed x ei (ix2 p c)
      = segSum (dstCol ei) (fun e => withOnes x (ix2 (srcRow (n := 100000) (by decide) (srcCol ei) e) c)) p := by
  unfold summed
  refine (Pegcn.Lib.scatterAdd2_apply scatter_S100000x129_S1600000x1_S1600000x129_1_0_0_1 rfl rfl rfl rfl _ _ _ p c).trans ?_
  unfold segSum
  refine congrArg₂ (· + ·) rfl ?_
  refine (sum_pairs_eq_sum_rows (dstCol ei) (p.val : Int) c _).trans ?_
  refine Finset.sum_congr rfl fun e _ => ?_
  exact Pegcn.Lib.gather2_apply (by decide) gather_S100000x129_S1600000x1_S1600000x129_1_0_n_n_0_1_1129
    rfl rfl rfl rfl rfl rfl (withOnes x) (srcCol ei) e c

/-- A column below 128 of the widened table is the feature table's column. -/
theorem withOnes_left (x : FVec Ideal S100000x128 .f32) (r : Fin 100000) (k : Fin 128) :
    withOnes x (ix2 r (⟨k.val, Nat.lt_succ_of_lt k.isLt⟩ : Fin 129)) = x (ix2 r k) := by
  unfold withOnes
  exact concatenate_pair_apply_left (t := S100000x129) (s₁ := S100000x128) (s₂ := S100000x1) (1 : Fin 2)
    (truncf .bf16 x bitsLt_bf16_f32)
    (broadcastInDim S100000x1 ![] bcast_S_S100000x1 (constant (F := Ideal) S_ .bf16 0x3F80#16))
    concatenates_S100000x128_S100000x1_S100000x129_d1
    (ix2 r (⟨k.val, Nat.lt_succ_of_lt k.isLt⟩ : Fin 129)) rfl (ix2 r k)
    (fun b => by
      match b with
      | ⟨0, _⟩ => rfl
      | ⟨1, _⟩ => rfl)

/-- Column 128 of the widened table is the one: the bf16 word 0x3F80 and the f32 word 0x3F800000 both denote 1. -/
theorem withOnes_right (x : FVec Ideal S100000x128 .f32) (r : Fin 100000) :
    withOnes x (ix2 r (⟨128, by decide⟩ : Fin 129)) = oneW := by
  unfold withOnes
  refine (concatenate_pair_apply_right (t := S100000x129) (s₁ := S100000x128) (s₂ := S100000x1) (1 : Fin 2)
    (truncf .bf16 x bitsLt_bf16_f32)
    (broadcastInDim S100000x1 ![] bcast_S_S100000x1 (constant (F := Ideal) S_ .bf16 0x3F80#16))
    concatenates_S100000x128_S100000x1_S100000x129_d1
    (ix2 r (⟨128, by decide⟩ : Fin 129)) rfl rfl (ix2 r (0 : Fin 1)) ?_ ?_).trans ?_
  · intro b hb
    match b with
    | ⟨0, _⟩ => rfl
    | ⟨1, _⟩ => exact absurd rfl hb
  · rfl
  · show Ideal.ofBits .bf16 0x3F80#16 = Ideal.ofBits .f32 0x3F800000#32
    rw [Ideal.ofBits_one_bf16, MeanLayer.one_f32]

/-- The slice of the first 128 columns of a 129-column array, at (p, k). -/
theorem slice_left (v : FVec Ideal S100000x129 .f32) (p : Fin 100000) (k : Fin 128) :
    extractStridedSlice S100000x128 ![0, 0] v slices_S100000x129_S100000x128_0_0 (ix2 p k)
      = v (ix2 p (⟨k.val, Nat.lt_succ_of_lt k.isLt⟩ : Fin 129)) :=
  extractStridedSlice_apply ![0, 0] v slices_S100000x129_S100000x128_0_0 (ix2 p k)
    (ix2 p (⟨k.val, Nat.lt_succ_of_lt k.isLt⟩ : Fin 129)) (fun a => by
      match a with
      | ⟨0, _⟩ => exact (Nat.zero_add _).symm
      | ⟨1, _⟩ => exact (Nat.zero_add _).symm)

/-- The slice of column 128 of a 129-column array, at (p, 0). -/
theorem slice_last (v : FVec Ideal S100000x129 .f32) (p : Fin 100000) :
    extractStridedSlice S100000x1 ![0, 128] v slices_S100000x129_S100000x1_0_128 (ix2 p (0 : Fin 1))
      = v (ix2 p (⟨128, by decide⟩ : Fin 129)) :=
  extractStridedSlice_apply ![0, 128] v slices_S100000x129_S100000x1_0_128 (ix2 p (0 : Fin 1))
    (ix2 p (⟨128, by decide⟩ : Fin 129)) (fun a => by
      match a with
      | ⟨0, _⟩ => exact (Nat.zero_add _).symm
      | ⟨1, _⟩ => rfl)

/-- The first layer's neighbour sums at (p, k). -/
theorem agg1_apply (x : FVec Ideal S100000x128 .f32) (ei : IVec S2x1600000 32) (p : Fin 100000) (k : Fin 128) :
    agg1 x ei (ix2 p k) = aggAt (n := 100000) (by decide) (srcCol ei) (dstCol ei) x p k := by
  unfold agg1
  refine (slice_left (summed x ei) p k).trans ?_
  refine (summed_apply x ei p _).trans ?_
  unfold aggAt
  refine congrArg (fun f => segSum (dstCol ei) f p) (funext fun e => ?_)
  exact withOnes_left x _ k

/-- The in-degree of p: the ones column summed over the edges into p. -/
theorem cntCol_apply (x : FVec Ideal S100000x128 .f32) (ei : IVec S2x1600000 32) (p : Fin 100000) :
    cntCol x ei (ix2 p (0 : Fin 1)) = cntAt (dstCol ei) p := by
  unfold cntCol
  refine (slice_last (summed x ei) p).trans ?_
  refine (summed_apply x ei p _).trans ?_
  unfold cntAt
  refine congrArg (fun f => segSum (dstCol ei) f p) (funext fun e => ?_)
  exact withOnes_right x _

/-! ## The layout operations at an entry -/

/-- The result at (p, q) is the second launch's array at (p, q). -/
theorem result_apply (y : FVec Ideal S100000x128 .f32) (p : Fin 100000) (q : Fin 64) :
    result y (ix2 p q) = y (ix2 p (Fin.castAdd 64 q)) := by
  unfold result
  exact extractStridedSlice_apply ![0, 0] y slices_S100000x128_S100000x64_0_0 (ix2 p q) (ix2 p (Fin.castAdd 64 q))
    (fun a => by
      match a with
      | ⟨0, _⟩ => exact (Nat.zero_add _).symm
      | ⟨1, _⟩ => exact (Nat.zero_add _).symm)

/-- The first 128 rows of the first layer's stacked weights are W_l. -/
theorem wcat1_left (wl wr : FVec Ideal S128x128 .f32) (k q : Fin 128) :
    wcat1 wl wr (ix2 (Fin.castAdd 128 k) q) = wl (ix2 k q) := by
  unfold wcat1
  exact concatenate_pair_apply_left (0 : Fin 2) wl wr concatenates_S128x128_S128x128_S256x128_d0
    (ix2 (Fin.castAdd 128 k) q) rfl (ix2 k q)
    (fun b => by
      match b with
      | ⟨0, _⟩ => rfl
      | ⟨1, _⟩ => rfl)

/-- The last 128 rows of the first layer's stacked weights are W_r. -/
theorem wcat1_right (wl wr : FVec Ideal S128x128 .f32) (k q : Fin 128) :
    wcat1 wl wr (ix2 (Fin.natAdd 128 k) q) = wr (ix2 k q) := by
  unfold wcat1
  exact concatenate_pair_apply_right (0 : Fin 2) wl wr concatenates_S128x128_S128x128_S256x128_d0
    (ix2 (Fin.natAdd 128 k) q) rfl rfl (ix2 k q)
    (fun b hb => by
      match b with
      | ⟨0, _⟩ => exact absurd rfl hb
      | ⟨1, _⟩ => rfl)
    (by show k.val + 128 = 128 + k.val; omega)

/-- The first layer's bias row at (0, q) is the bias at q. -/
theorem brow1_apply (b : FVec Ideal S128 .f32) (q : Fin 128) : brow1 b (ix2 (0 : Fin 1) q) = b (ix1 q) := by
  unfold brow1
  exact shapeCast_a_1a_apply b shapeCasts_S128_S1x128 0 q

/-- The first 128 rows and first 64 columns of the second layer's padded stack are W_l. -/
theorem wcat2_left (wl wr : FVec Ideal S128x64 .f32) (k : Fin 128) (q : Fin 64) :
    wcat2 wl wr (ix2 (Fin.castAdd 128 k) (Fin.castAdd 64 q)) = wl (ix2 k q) := by
  unfold wcat2
  refine (pad_apply_of_inside ![0, 0] ![0, 64] ![0, 0] _ _ pads_S256x64_S256x128_000_0640 h_S_
    (ix2 (Fin.castAdd 128 k) (Fin.castAdd 64 q)) (ix2 (Fin.castAdd 128 k) q) (fun a => by
      match a with
      | ⟨0, _⟩ => show k.val = 0 + k.val * (0 + 1); omega
      | ⟨1, _⟩ => show q.val = 0 + q.val * (0 + 1); omega)).trans ?_
  exact concatenate_pair_apply_left (0 : Fin 2) wl wr concatenates_S128x64_S128x64_S256x64_d0
    (ix2 (Fin.castAdd 128 k) q) rfl (ix2 k q)
    (fun b => by
      match b with
      | ⟨0, _⟩ => rfl
      | ⟨1, _⟩ => rfl)

/-- The last 128 rows and first 64 columns of the second layer's padded stack are W_r. -/
theorem wcat2_right (wl wr : FVec Ideal S128x64 .f32) (k : Fin 128) (q : Fin 64) :
    wcat2 wl wr (ix2 (Fin.natAdd 128 k) (Fin.castAdd 64 q)) = wr (ix2 k q) := by
  unfold wcat2
  refine (pad_apply_of_inside ![0, 0] ![0, 64] ![0, 0] _ _ pads_S256x64_S256x128_000_0640 h_S_
    (ix2 (Fin.natAdd 128 k) (Fin.castAdd 64 q)) (ix2 (Fin.natAdd 128 k) q) (fun a => by
      match a with
      | ⟨0, _⟩ => show 128 + k.val = 0 + (128 + k.val) * (0 + 1); omega
      | ⟨1, _⟩ => show q.val = 0 + q.val * (0 + 1); omega)).trans ?_
  exact concatenate_pair_apply_right (0 : Fin 2) wl wr concatenates_S128x64_S128x64_S256x64_d0
    (ix2 (Fin.natAdd 128 k) q) rfl rfl (ix2 k q)
    (fun b hb => by
      match b with
      | ⟨0, _⟩ => exact absurd rfl hb
      | ⟨1, _⟩ => rfl)
    (by show k.val + 128 = 128 + k.val; omega)

/-- The second layer's padded bias row at (0, q), q below 64, is the bias at q. -/
theorem brow2_apply (b : FVec Ideal S64 .f32) (q : Fin 64) :
    brow2 b (ix2 (0 : Fin 1) (Fin.castAdd 64 q)) = b (ix1 q) := by
  unfold brow2
  refine (shapeCast_a_1a_apply _ shapeCasts_S128_S1x128 0 (Fin.castAdd 64 q)).trans ?_
  exact pad_apply_of_inside ![0] ![64] ![0] b _ pads_S64_S128_0640 h_S_ (ix1 (Fin.castAdd 64 q)) (ix1 q)
    (fun a => by
      match a with
      | ⟨0, _⟩ => show q.val = 0 + q.val * (0 + 1); omega)

end Cert.KernelIdeal.HostValue

end
-- ==== Proof.RegionValue.lean ====
/-
  What each launch leaves in its output array, as one function of the arrays it finds.

  A launch runs its body at ten grid points; point t reads rows 10000·t … 10000·t + 9999 of the three node-indexed
  operands (the neighbours' sums, the in-degree column, the node features), the whole [256,128] weight matrix and the
  whole [1,128] bias row, and writes back rows 10000·t … of the output. The body's value at row p, column q of its
  tile is the spec's unit at node 10000·t + p: the first 128 rows of the weight matrix are W_l, the last 128 are W_r.
  The ten blocks tile the output, so after the launch the whole array is that function of the operands.
-/
import proofs.«173106_j12781822673112_2_alg».proof.Proof.Gen.KernelIdeal.Frame
import proofs.«173106_j12781822673112_2_alg».proof.Proof.GraphMeanSpec
import Idealize.ShloMosaic.Lib.Pipeline.Value

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem GraphMean
open Idealize.ShloMosaic.Pipeline (Dat Cfg Window)

/-! ## The weight matrix's halves and the bias row, as the spec's matrices -/

/-- Rows 0 … 127 of a [256,128] matrix: W_l. -/
def upper (w : Mat 256 128) : Mat 128 128 :=
  fun j => w (ix2 (Fin.castAdd 128 (⟨(j 0).val, (j 0).isLt⟩ : Fin 128)) (⟨(j 1).val, (j 1).isLt⟩ : Fin 128))
/-- Rows 128 … 255: W_r. -/
def lower (w : Mat 256 128) : Mat 128 128 :=
  fun j => w (ix2 (Fin.natAdd 128 (⟨(j 0).val, (j 0).isLt⟩ : Fin 128)) (⟨(j 1).val, (j 1).isLt⟩ : Fin 128))
/-- The one row of a [1,128] matrix as a vector. -/
def rowOf (b : Mat 1 128) : Row 128 := fun j => b (ix2 (0 : Fin 1) (⟨(j 0).val, (j 0).isLt⟩ : Fin 128))

theorem upper_apply (w : Mat 256 128) (k q : Fin 128) : upper w (ix2 k q) = w (ix2 (Fin.castAdd 128 k) q) := rfl
theorem lower_apply (w : Mat 256 128) (k q : Fin 128) : lower w (ix2 k q) = w (ix2 (Fin.natAdd 128 k) q) := rfl
theorem rowOf_apply (b : Mat 1 128) (q : Fin 128) : rowOf b (ix1 q) = b (ix2 0 q) := rfl

/-- The unit at node P, output column q, of a launch's operands: neighbours' sums a, in-degree column cn, features x,
    joined weights w, bias row b. -/
def unitOf (a : Mat 100000 128) (cn : Mat 100000 1) (x : Mat 100000 128) (w : Mat 256 128) (b : Mat 1 128)
    (P : Fin 100000) (q : Fin 128) : EReal :=
  unitAt (fun P k => a (ix2 P k)) (fun P => cn (ix2 P (0 : Fin 1))) x (upper w) (lower w) (rowOf b) P q

/-- The first launch's output array: the rectified unit at every (node, column). -/
def G0 (a : Mat 100000 128) (cn : Mat 100000 1) (x : Mat 100000 128) (w : Mat 256 128) (b : Mat 1 128) : Mat 100000 128 :=
  fun i => max (unitOf a cn x w b ⟨(i 0).val, (i 0).isLt⟩ ⟨(i 1).val, (i 1).isLt⟩) zeroW
/-- The second launch's: the unit itself. -/
def G1 (a : Mat 100000 128) (cn : Mat 100000 1) (x : Mat 100000 128) (w : Mat 256 128) (b : Mat 1 128) : Mat 100000 128 :=
  fun i => unitOf a cn x w b ⟨(i 0).val, (i 0).isLt⟩ ⟨(i 1).val, (i 1).isLt⟩

theorem G0_apply (a cn x w b) (P : Fin 100000) (q : Fin 128) : G0 a cn x w b (ix2 P q) = max (unitOf a cn x w b P q) zeroW := rfl
theorem G1_apply (a cn x w b) (P : Fin 100000) (q : Fin 128) : G1 a cn x w b (ix2 P q) = unitOf a cn x w b P q := rfl

/-! ## A body's value at an entry -/

/-- The first body's value at row p, column q of its tile: one contraction over 128 + 128 columns — the scaled sums,
    then the tile's own rows — against the weight matrix's rows, plus the bias row, rectified. -/
def BodyFact0 : Prop :=
  ∀ (v0 : Vec Ideal S10000x1 .f32) (v6 v10 : Vec Ideal S10000x128 .f32) (v12 : Vec Ideal S256x128 .f32)
    (v15 : Vec Ideal S1x128 .f32) (p : Fin 10000) (q : Fin 128),
    ∃ cat w : Fin (128 + 128) → EReal,
      (∀ k : Fin 128, cat (Fin.castAdd 128 k) = v6 (ix2 p k) * Ideal.div oneW (max (v0 (ix2 p 0)) oneW)) ∧
      (∀ k : Fin 128, cat (Fin.natAdd 128 k) = v10 (ix2 p k)) ∧
      (∀ k : Fin 128, w (Fin.castAdd 128 k) = v12 (ix2 (Fin.castAdd 128 k) q)) ∧
      (∀ k : Fin 128, w (Fin.natAdd 128 k) = v12 (ix2 (Fin.natAdd 128 k) q)) ∧
      k0_pay1 (F := Ideal) v0 v6 v10 v12 v15 (ix2 p q) = max ((∑ k : Fin (128 + 128), cat k * w k) + v15 (ix2 0 q)) zeroW

/-- The second body's: the same, not rectified. -/
def BodyFact1 : Prop :=
  ∀ (v0 : Vec Ideal S10000x1 .f32) (v6 v10 : Vec Ideal S10000x128 .f32) (v13 : Vec Ideal S256x128 .f32)
    (v16 : Vec Ideal S1x128 .f32) (p : Fin 10000) (q : Fin 128),
    ∃ cat w : Fin (128 + 128) → EReal,
      (∀ k : Fin 128, cat (Fin.castAdd 128 k) = v6 (ix2 p k) * Ideal.div oneW (max (v0 (ix2 p 0)) oneW)) ∧
      (∀ k : Fin 128, cat (Fin.natAdd 128 k) = v10 (ix2 p k)) ∧
      (∀ k : Fin 128, w (Fin.castAdd 128 k) = v13 (ix2 (Fin.castAdd 128 k) q)) ∧
      (∀ k : Fin 128, w (Fin.natAdd 128 k) = v13 (ix2 (Fin.natAdd 128 k) q)) ∧
      k1_pay1 (F := Ideal) v0 v6 v10 v13 v16 (ix2 p q) = (∑ k : Fin (128 + 128), cat k * w k) + v16 (ix2 0 q)

/-- A tile's entry is the unit at the node the tile's row is: when the tile's rows are rows of the operands at node P
    and the weight and bias tiles are the whole matrices. -/
theorem pay0_entry (hpay : BodyFact0) (x1 : Vec Ideal S10000x1 .f32) (x0 x2 : Vec Ideal S10000x128 .f32)
    (x3 : Vec Ideal S256x128 .f32) (x4 : Vec Ideal S1x128 .f32)
    (a : Mat 100000 128) (cn : Mat 100000 1) (x : Mat 100000 128) (w : Mat 256 128) (b : Mat 1 128)
    (P : Fin 100000) (p : Fin 10000) (q : Fin 128)
    (h0 : ∀ k : Fin 128, x0 (ix2 p k) = a (ix2 P k)) (h1 : x1 (ix2 p 0) = cn (ix2 P 0))
    (h2 : ∀ k : Fin 128, x2 (ix2 p k) = x (ix2 P k)) (h3 : ∀ k : Fin 256, x3 (ix2 k q) = w (ix2 k q))
    (h4 : x4 (ix2 0 q) = b (ix2 0 q)) :
    k0_pay1 (F := Ideal) x1 x0 x2 x3 x4 (ix2 p q) = G0 a cn x w b (ix2 P q) := by
  obtain ⟨cat, wv, hcl, hcr, hwl, hwr, hv⟩ := hpay x1 x0 x2 x3 x4 p q
  rw [hv, G0_apply]
  congr 1
  refine joined_eq_unitAt (fun P k => a (ix2 P k)) (fun P => cn (ix2 P (0 : Fin 1))) x (upper w) (lower w) (rowOf b)
    P q cat wv _ (fun k => ?_) (fun k => ?_) (fun k => ?_) (fun k => ?_) ?_
  · rw [hcl, h0, h1]
  · rw [hcr, h2]
  · rw [hwl, upper_apply]; exact h3 _
  · rw [hwr, lower_apply]; exact h3 _
  · rw [rowOf_apply]; exact h4

theorem pay1_entry (hpay : BodyFact1) (x1 : Vec Ideal S10000x1 .f32) (x0 x2 : Vec Ideal S10000x128 .f32)
    (x3 : Vec Ideal S256x128 .f32) (x4 : Vec Ideal S1x128 .f32)
    (a : Mat 100000 128) (cn : Mat 100000 1) (x : Mat 100000 128) (w : Mat 256 128) (b : Mat 1 128)
    (P : Fin 100000) (p : Fin 10000) (q : Fin 128)
    (h0 : ∀ k : Fin 128, x0 (ix2 p k) = a (ix2 P k)) (h1 : x1 (ix2 p 0) = cn (ix2 P 0))
    (h2 : ∀ k : Fin 128, x2 (ix2 p k) = x (ix2 P k)) (h3 : ∀ k : Fin 256, x3 (ix2 k q) = w (ix2 k q))
    (h4 : x4 (ix2 0 q) = b (ix2 0 q)) :
    k1_pay1 (F := Ideal) x1 x0 x2 x3 x4 (ix2 p q) = G1 a cn x w b (ix2 P q) := by
  obtain ⟨cat, wv, hcl, hcr, hwl, hwr, hv⟩ := hpay x1 x0 x2 x3 x4 p q
  rw [hv, G1_apply]
  refine joined_eq_unitAt (fun P k => a (ix2 P k)) (fun P => cn (ix2 P (0 : Fin 1))) x (upper w) (lower w) (rowOf b)
    P q cat wv _ (fun k => ?_) (fun k => ?_) (fun k => ?_) (fun k => ?_) ?_
  · rw [hcl, h0, h1]
  · rw [hcr, h2]
  · rw [hwl, upper_apply]; exact h3 _
  · rw [hwr, lower_apply]; exact h3 _
  · rw [rowOf_apply]; exact h4

/-! ## From blocks to the array: the first launch -/

theorem hz : (![0, 0] : Fin 2 → Nat) = fun _ => 0 := funext fun a => by fin_cases a <;> rfl

/-- The printed index maps over the grid: the three node-indexed operands and the output move together down the rows,
    one block per point; the weight matrix and the bias row stay at block (0, 0). -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row blocks is some point's. -/
theorem idx_onto0 : ∀ q0 : Fin 10, ∃ t : Fin cfg0.N, win0_5.index t = ![q0.val, 0] :=
  (by decide +kernel : ∀ q0 : Fin 10, ∃ t : Fin grid0.N, win0_5.index t = ![q0.val, 0])

section Region0
variable (V : (c : Dev nD) → (b : Ref sig .tc) → Buf (Elt Ideal) ((c : Thread nD τ).loc b))

/-- What point t writes back is block t of G0 of the arrays the launch finds. -/
theorem flushed0_eq (hpay : BodyFact0) (c : Dev nD) (t : Fin cfg0.N) :
    (dat0 (F := Ideal) V c).flushed 5 t
      = ((cfg0.win 5).blk t).view.read (Elt Ideal)
          (G0 (V c main_v18) (V c main_v19) (V c main_arg0) (V c main_v20) (V c main_v21)) := by
  show (cfg0.win 5).cut (grid0.coords t) ((dat0 V c).after 5 t) = _
  rw [after0_5]
  unfold out0_5
  rw [View.canon_unit_zero hz]
  simp only [View.ld_unit_zero (S := S10000x128) hz, View.ld_unit_zero (S := S10000x1) hz,
    View.ld_unit_zero (S := S256x128) hz, View.ld_unit_zero (S := S1x128) hz]
  obtain ⟨e0, e1, e2, e3, e4, e5, e6, e7, e8, e9, e10, e11⟩ := idx_facts0 t
  have key : ∀ j : S10000x128.Idx,
      k0_pay1 (F := Ideal) (iblk0 V c 1 t) (iblk0 V c 0 t) (iblk0 V c 2 t) (iblk0 V c 3 t) (iblk0 V c 4 t) j
        = G0 (V c main_v18) (V c main_v19) (V c main_arg0) (V c main_v20) (V c main_v21)
            (((cfg0.win 5).blk t).view.emb j) := by
    intro j
    obtain ⟨p, q, rfl⟩ : ∃ (p : Fin 10000) (q : Fin 128), j = ix2 p q := ⟨j 0, j 1, eq_ix2 j⟩
    have hp : p.val < 10000 := p.isLt
    have hq : q.val < 128 := q.isLt
    have hP : win0_5.index t (0 : Fin 2) * 10000 + 1 * p.val < 100000 := by omega
    have hemb : ((cfg0.win 5).blk t).view.emb (ix2 p q)
        = ix2 (⟨win0_5.index t (0 : Fin 2) * 10000 + 1 * p.val, hP⟩ : Fin 100000) q := by
      funext a; apply Fin.ext
      match a with
      | ⟨0, _⟩ => rfl
      | ⟨1, _⟩ => show win0_5.index t (1 : Fin 2) * 128 + 1 * q.val = q.val; omega
    refine (pay0_entry hpay _ _ _ _ _ (V c main_v18) (V c main_v19) (V c main_arg0) (V c main_v20) (V c main_v21)
      ⟨win0_5.index t (0 : Fin 2) * 10000 + 1 * p.val, hP⟩ p q ?_ ?_ ?_ ?_ ?_).trans (congrArg _ hemb.symm)
    · intro k
      have hk : k.val < 128 := k.isLt
      show V c main_v18 (((cfg0.win 0).blk t).view.emb (ix2 p k)) = V c main_v18 _
      have h : ((cfg0.win 0).blk t).view.emb (ix2 p k)
          = ix2 (⟨win0_5.index t (0 : Fin 2) * 10000 + 1 * p.val, hP⟩ : Fin 100000) k := by
        funext a; apply Fin.ext
        match a with
        | ⟨0, _⟩ => show win0_0.index t (0 : Fin 2) * 10000 + 1 * p.val = win0_5.index t (0 : Fin 2) * 10000 + 1 * p.val; omega
        | ⟨1, _⟩ => show win0_0.index t (1 : Fin 2) * 128 + 1 * k.val = k.val; omega
      rw [h]
    · show V c main_v19 (((cfg0.win 1).blk t).view.emb (ix2 p 0)) = V c main_v19 _
      have h : ((cfg0.win 1).blk t).view.emb (ix2 p (0 : Fin 1))
          = ix2 (⟨win0_5.index t (0 : Fin 2) * 10000 + 1 * p.val, hP⟩ : Fin 100000) (0 : Fin 1) := by
        funext a; apply Fin.ext
        match a with
        | ⟨0, _⟩ => show win0_1.index t (0 : Fin 2) * 10000 + 1 * p.val = win0_5.index t (0 : Fin 2) * 10000 + 1 * p.val; omega
        | ⟨1, _⟩ => show win0_1.index t (1 : Fin 2) * 1 + 1 * 0 = 0; omega
      rw [h]
    · intro k
      have hk : k.val < 128 := k.isLt
      show V c main_arg0 (((cfg0.win 2).blk t).view.emb (ix2 p k)) = V c main_arg0 _
      have h : ((cfg0.win 2).blk t).view.emb (ix2 p k)
          = ix2 (⟨win0_5.index t (0 : Fin 2) * 10000 + 1 * p.val, hP⟩ : Fin 100000) k := by
        funext a; apply Fin.ext
        match a with
        | ⟨0, _⟩ => show win0_2.index t (0 : Fin 2) * 10000 + 1 * p.val = win0_5.index t (0 : Fin 2) * 10000 + 1 * p.val; omega
        | ⟨1, _⟩ => show win0_2.index t (1 : Fin 2) * 128 + 1 * k.val = k.val; omega
      rw [h]
    · intro k
      have hk : k.val < 256 := k.isLt
      show V c main_v20 (((cfg0.win 3).blk t).view.emb (ix2 k q)) = V c main_v20 _
      have h : ((cfg0.win 3).blk t).view.emb (ix2 k q) = ix2 k q := by
        funext a; apply Fin.ext
        match a with
        | ⟨0, _⟩ => show win0_3.index t (0 : Fin 2) * 256 + 1 * k.val = k.val; omega
        | ⟨1, _⟩ => show win0_3.index t (1 : Fin 2) * 128 + 1 * q.val = q.val; omega
      rw [h]
    · show V c main_v21 (((cfg0.win 4).blk t).view.emb (ix2 (0 : Fin 1) q)) = V c main_v21 _
      have h : ((cfg0.win 4).blk t).view.emb (ix2 (0 : Fin 1) q) = ix2 (0 : Fin 1) q := by
        funext a; apply Fin.ext
        match a with
        | ⟨0, _⟩ => show win0_4.index t (0 : Fin 2) * 1 + 1 * 0 = 0; omega
        | ⟨1, _⟩ => show win0_4.index t (1 : Fin 2) * 128 + 1 * q.val = q.val; omega
      rw [h]
  funext j
  exact key j

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v22).slice (win0_5.rect t)).set ↔ _
  rw [View.set_slice_whole, Rect.mem_set_unit]
  exact Iff.rfl

/-- The ten blocks tile the output array. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- The first launch's output array after the launch: G0 of the arrays it found. -/
theorem final0 (hpay : BodyFact0) (c : Dev nD) :
    (dat0 (F := Ideal) V c).arrAt 5 cfg0.N
      = G0 (V c main_v18) (V c main_v19) (V c main_arg0) (V c main_v20) (V c main_v21) :=
  (dat0 (F := Ideal) V c).arrAt_eq_of_cover 5 _ (fun t _ => flushed0_eq V hpay c t) (cover0)

end Region0

/-! ## From blocks to the array: the second launch -/

/-- The printed index maps over the grid: the three node-indexed operands and the output move together down the rows,
    one block per point; the weight matrix and the bias row stay at block (0, 0). -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the ten row blocks is some point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

section Region1
variable (V : (c : Dev nD) → (b : Ref sig .tc) → Buf (Elt Ideal) ((c : Thread nD τ).loc b))

/-- What point t writes back is block t of G1 of the arrays the launch finds. -/
theorem flushed1_eq (hpay : BodyFact1) (c : Dev nD) (t : Fin cfg1.N) :
    (dat1 (F := Ideal) V c).flushed 5 t
      = ((cfg1.win 5).blk t).view.read (Elt Ideal)
          (G1 (V c main_v34) (V c main_v19) (V c main_v22) (V c main_v36) (V c main_v38)) := by
  show (cfg1.win 5).cut (grid1.coords t) ((dat1 V c).after 5 t) = _
  rw [after1_5]
  unfold out1_5
  rw [View.canon_unit_zero hz]
  simp only [View.ld_unit_zero (S := S10000x128) hz, View.ld_unit_zero (S := S10000x1) hz,
    View.ld_unit_zero (S := S256x128) hz, View.ld_unit_zero (S := S1x128) hz]
  obtain ⟨e0, e1, e2, e3, e4, e5, e6, e7, e8, e9, e10, e11⟩ := idx_facts1 t
  have key : ∀ j : S10000x128.Idx,
      k1_pay1 (F := Ideal) (iblk1 V c 1 t) (iblk1 V c 0 t) (iblk1 V c 2 t) (iblk1 V c 3 t) (iblk1 V c 4 t) j
        = G1 (V c main_v34) (V c main_v19) (V c main_v22) (V c main_v36) (V c main_v38)
            (((cfg1.win 5).blk t).view.emb j) := by
    intro j
    obtain ⟨p, q, rfl⟩ : ∃ (p : Fin 10000) (q : Fin 128), j = ix2 p q := ⟨j 0, j 1, eq_ix2 j⟩
    have hp : p.val < 10000 := p.isLt
    have hq : q.val < 128 := q.isLt
    have hP : win1_5.index t (0 : Fin 2) * 10000 + 1 * p.val < 100000 := by omega
    have hemb : ((cfg1.win 5).blk t).view.emb (ix2 p q)
        = ix2 (⟨win1_5.index t (0 : Fin 2) * 10000 + 1 * p.val, hP⟩ : Fin 100000) q := by
      funext a; apply Fin.ext
      match a with
      | ⟨0, _⟩ => rfl
      | ⟨1, _⟩ => show win1_5.index t (1 : Fin 2) * 128 + 1 * q.val = q.val; omega
    refine (pay1_entry hpay _ _ _ _ _ (V c main_v34) (V c main_v19) (V c main_v22) (V c main_v36) (V c main_v38)
      ⟨win1_5.index t (0 : Fin 2) * 10000 + 1 * p.val, hP⟩ p q ?_ ?_ ?_ ?_ ?_).trans (congrArg _ hemb.symm)
    · intro k
      have hk : k.val < 128 := k.isLt
      show V c main_v34 (((cfg1.win 0).blk t).view.emb (ix2 p k)) = V c main_v34 _
      have h : ((cfg1.win 0).blk t).view.emb (ix2 p k)
          = ix2 (⟨win1_5.index t (0 : Fin 2) * 10000 + 1 * p.val, hP⟩ : Fin 100000) k := by
        funext a; apply Fin.ext
        match a with
        | ⟨0, _⟩ => show win1_0.index t (0 : Fin 2) * 10000 + 1 * p.val = win1_5.index t (0 : Fin 2) * 10000 + 1 * p.val; omega
        | ⟨1, _⟩ => show win1_0.index t (1 : Fin 2) * 128 + 1 * k.val = k.val; omega
      rw [h]
    · show V c main_v19 (((cfg1.win 1).blk t).view.emb (ix2 p 0)) = V c main_v19 _
      have h : ((cfg1.win 1).blk t).view.emb (ix2 p (0 : Fin 1))
          = ix2 (⟨win1_5.index t (0 : Fin 2) * 10000 + 1 * p.val, hP⟩ : Fin 100000) (0 : Fin 1) := by
        funext a; apply Fin.ext
        match a with
        | ⟨0, _⟩ => show win1_1.index t (0 : Fin 2) * 10000 + 1 * p.val = win1_5.index t (0 : Fin 2) * 10000 + 1 * p.val; omega
        | ⟨1, _⟩ => show win1_1.index t (1 : Fin 2) * 1 + 1 * 0 = 0; omega
      rw [h]
    · intro k
      have hk : k.val < 128 := k.isLt
      show V c main_v22 (((cfg1.win 2).blk t).view.emb (ix2 p k)) = V c main_v22 _
      have h : ((cfg1.win 2).blk t).view.emb (ix2 p k)
          = ix2 (⟨win1_5.index t (0 : Fin 2) * 10000 + 1 * p.val, hP⟩ : Fin 100000) k := by
        funext a; apply Fin.ext
        match a with
        | ⟨0, _⟩ => show win1_2.index t (0 : Fin 2) * 10000 + 1 * p.val = win1_5.index t (0 : Fin 2) * 10000 + 1 * p.val; omega
        | ⟨1, _⟩ => show win1_2.index t (1 : Fin 2) * 128 + 1 * k.val = k.val; omega
      rw [h]
    · intro k
      have hk : k.val < 256 := k.isLt
      show V c main_v36 (((cfg1.win 3).blk t).view.emb (ix2 k q)) = V c main_v36 _
      have h : ((cfg1.win 3).blk t).view.emb (ix2 k q) = ix2 k q := by
        funext a; apply Fin.ext
        match a with
        | ⟨0, _⟩ => show win1_3.index t (0 : Fin 2) * 256 + 1 * k.val = k.val; omega
        | ⟨1, _⟩ => show win1_3.index t (1 : Fin 2) * 128 + 1 * q.val = q.val; omega
      rw [h]
    · show V c main_v38 (((cfg1.win 4).blk t).view.emb (ix2 (0 : Fin 1) q)) = V c main_v38 _
      have h : ((cfg1.win 4).blk t).view.emb (ix2 (0 : Fin 1) q) = ix2 (0 : Fin 1) q := by
        funext a; apply Fin.ext
        match a with
        | ⟨0, _⟩ => show win1_4.index t (0 : Fin 2) * 1 + 1 * 0 = 0; omega
        | ⟨1, _⟩ => show win1_4.index t (1 : Fin 2) * 128 + 1 * q.val = q.val; omega
      rw [h]
  funext j
  exact key j

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v39).slice (win1_5.rect t)).set ↔ _
  rw [View.set_slice_whole, Rect.mem_set_unit]
  exact Iff.rfl

/-- The ten blocks tile the output array. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- The second launch's output array after the launch: G1 of the arrays it found. -/
theorem final1 (hpay : BodyFact1) (c : Dev nD) :
    (dat1 (F := Ideal) V c).arrAt 5 cfg1.N
      = G1 (V c main_v34) (V c main_v19) (V c main_v22) (V c main_v36) (V c main_v38) :=
  (dat1 (F := Ideal) V c).arrAt_eq_of_cover 5 _ (fun t _ => flushed1_eq V hpay c t) (cover1)

end Region1

end Cert.KernelIdeal.RegionValue

end
-- ==== Proof.KernelRun.lean ====
/-
  The idealized kernel program's run with its RESULT named.

  @main is a chain of segments: a stretch of host operations, the first layer's launch, five more stretches, the second
  layer's launch, and the final slice. Every segment takes the contents of the unscoped buffers at its entry to their
  contents at its exit, so the chain ends with every unscoped buffer at the last boundary's contents; the generated
  frame reads the eight argument buffers off that final state, and here the result buffer is read off it as well.
-/
import proofs.«173106_j12781822673112_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result buffer holding the last boundary's
    contents of it and the eight arguments as launched. -/
theorem run_result : θ_run defs (onTc (τ := τ) (main (F := F))) ⟨m, fun _ => 0, ρ⟩ (fun r => ∀ c : Dev nD,
      r.2.mem ((c.tc : Thread nD τ).loc main_v40) = W9 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v40 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.HostChain.lean ====
/-
  The buffers at every boundary of the idealized kernel program's @main, as functions of the eight launch arguments.

  Before the first launch the host builds the neighbours' sums, the in-degree column, the stacked weights and the bias
  row from the arguments. The first launch leaves the first layer's result; nothing between the launches writes it, the
  in-degree column or an argument. Before the second launch the host scatters the first layer's result over the same
  edges and pads the second layer's stacked weights and bias; the second launch leaves its result, and the last
  operation keeps its first 64 columns.
-/
import proofs.«173106_j12781822673112_2_alg».proof.Proof.Gen.KernelIdeal.Frame
import proofs.«173106_j12781822673112_2_alg».proof.Proof.RegionValue
import proofs.«173106_j12781822673112_2_alg».proof.Proof.HostValue
import Idealize.ShloMosaic.Lib.StableHlo.Run

set_option maxRecDepth 16384

noncomputable section

namespace Cert.KernelIdeal.HostChain

open Cert.KernelIdeal Cert.KernelIdeal.Gen Cert.KernelIdeal.HostValue Cert.KernelIdeal.RegionValue
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the first launch -/

theorem W1_v18 : W1 m ρ c (Proc.devRef .tc main_v18) = agg1 (m ((c : Thread nD τ).loc main_arg0)) (m ((c : Thread nD τ).loc main_arg1)) := by
  show StableHlo.after hostOps0 (W0 m ρ c) (Proc.devRef .tc main_v18) = _
  after_results_simp
  rfl

theorem W1_v19 : W1 m ρ c (Proc.devRef .tc main_v19) = cntCol (m ((c : Thread nD τ).loc main_arg0)) (m ((c : Thread nD τ).loc main_arg1)) := by
  show StableHlo.after hostOps0 (W0 m ρ c) (Proc.devRef .tc main_v19) = _
  after_results_simp
  rfl

theorem W1_v20 : W1 m ρ c (Proc.devRef .tc main_v20) = wcat1 (m ((c : Thread nD τ).loc main_arg2)) (m ((c : Thread nD τ).loc main_arg3)) := by
  show StableHlo.after hostOps0 (W0 m ρ c) (Proc.devRef .tc main_v20) = _
  after_results
  rfl

theorem W1_v21 : W1 m ρ c (Proc.devRef .tc main_v21) = brow1 (m ((c : Thread nD τ).loc main_arg4)) := by
  show StableHlo.after hostOps0 (W0 m ρ c) (Proc.devRef .tc main_v21) = _
  after_results
  rfl

theorem W1_arg (k : Ref sig .tc) (hk : k = main_arg0 ∨ k = main_arg1 ∨ k = main_arg5 ∨ k = main_arg6 ∨ k = main_arg7) :
    W1 m ρ c (Proc.devRef .tc k) = m ((c : Thread nD τ).loc k) := by
  rcases hk with rfl | rfl | rfl | rfl | rfl <;>
  · show StableHlo.after hostOps0 (W0 m ρ c) (Proc.devRef .tc _) = _
    after_results

theorem W1_v1 : W1 m ρ c (Proc.devRef .tc main_v1) = srcFlat (m ((c : Thread nD τ).loc main_arg1)) := by
  show StableHlo.after hostOps0 (W0 m ρ c) (Proc.devRef .tc main_v1) = _
  after_results
  rfl

theorem W1_v3 : W1 m ρ c (Proc.devRef .tc main_v3) = dstFlat (m ((c : Thread nD τ).loc main_arg1)) := by
  show StableHlo.after hostOps0 (W0 m ρ c) (Proc.devRef .tc main_v3) = _
  after_results
  rfl

/-! ## After the first launch -/

/-- The first layer's result array. -/
theorem W2_v22 (hp0 : BodyFact0) : W2 m ρ c (Proc.devRef .tc main_v22) = (G0 (agg1 (m ((c : Thread nD τ).loc main_arg0)) (m ((c : Thread nD τ).loc main_arg1))) (cntCol (m ((c : Thread nD τ).loc main_arg0)) (m ((c : Thread nD τ).loc main_arg1))) (m ((c : Thread nD τ).loc main_arg0)) (wcat1 (m ((c : Thread nD τ).loc main_arg2)) (m ((c : Thread nD τ).loc main_arg3))) (brow1 (m ((c : Thread nD τ).loc main_arg4)))) := by
  refine ((W2_arr m ρ c 5).trans (final0 (V1 m ρ) hp0 c)).trans ?_
  show G0 (W1 m ρ c (Proc.devRef .tc main_v18)) (W1 m ρ c (Proc.devRef .tc main_v19)) (W1 m ρ c (Proc.devRef .tc main_arg0))
    (W1 m ρ c (Proc.devRef .tc main_v20)) (W1 m ρ c (Proc.devRef .tc main_v21)) = _
  rw [W1_v18, W1_v19, W1_v20, W1_v21, W1_arg m ρ c main_arg0 (Or.inl rfl)]

/-- The in-degree column is an input of the first launch: it comes out as it went in. -/
theorem W2_v19 : W2 m ρ c (Proc.devRef .tc main_v19) = cntCol (m ((c : Thread nD τ).loc main_arg0)) (m ((c : Thread nD τ).loc main_arg1)) :=
  ((W2_arr m ρ c 1).trans (((dat0 (V1 m ρ) c).arrAt_in 1 rfl _).trans (A_eq0 (V1 m ρ) c 1))).trans (W1_v19 m ρ c)

theorem W2_v1 : W2 m ρ c (Proc.devRef .tc main_v1) = srcFlat (m ((c : Thread nD τ).loc main_arg1)) :=
  (W2_of_ne m ρ c main_v1 (by decide)).trans (W1_v1 m ρ c)

theorem W2_v3 : W2 m ρ c (Proc.devRef .tc main_v3) = dstFlat (m ((c : Thread nD τ).loc main_arg1)) :=
  (W2_of_ne m ρ c main_v3 (by decide)).trans (W1_v3 m ρ c)

theorem W2_arg5 : W2 m ρ c (Proc.devRef .tc main_arg5) = (m ((c : Thread nD τ).loc main_arg5)) :=
  (W2_of_ne m ρ c main_arg5 (by decide)).trans (W1_arg m ρ c main_arg5 (Or.inr (Or.inr (Or.inl rfl))))

theorem W2_arg6 : W2 m ρ c (Proc.devRef .tc main_arg6) = (m ((c : Thread nD τ).loc main_arg6)) :=
  (W2_of_ne m ρ c main_arg6 (by decide)).trans (W1_arg m ρ c main_arg6 (Or.inr (Or.inr (Or.inr (Or.inl rfl)))))

theorem W2_arg7 : W2 m ρ c (Proc.devRef .tc main_arg7) = (m ((c : Thread nD τ).loc main_arg7)) :=
  (W2_of_ne m ρ c main_arg7 (by decide)).trans (W1_arg m ρ c main_arg7 (Or.inr (Or.inr (Or.inr (Or.inr rfl)))))

/-! ## Before the second launch -/

theorem W7_unfold (r : Ref sig .tc) : W7 m ρ c (Proc.devRef .tc r)
    = StableHlo.after hostOps1_4 (StableHlo.after hostOps1_3 (StableHlo.after hostOps1_2 (StableHlo.after hostOps1_1
        (StableHlo.after hostOps1 (W2 m ρ c))))) (Proc.devRef .tc r) := rfl

/-- The second layer's neighbour sums: the first layer's result scattered over the same edges. -/
theorem W7_v34 : W7 m ρ c (Proc.devRef .tc main_v34) = agg2 (W2 m ρ c (Proc.devRef .tc main_v22)) (m ((c : Thread nD τ).loc main_arg1)) := by
  rw [W7_unfold]
  after_results
  rw [W2_v1, W2_v3]
  rfl

theorem W7_v19 : W7 m ρ c (Proc.devRef .tc main_v19) = cntCol (m ((c : Thread nD τ).loc main_arg0)) (m ((c : Thread nD τ).loc main_arg1)) := by
  rw [W7_unfold]
  after_results
  exact W2_v19 m ρ c

theorem W7_v22 : W7 m ρ c (Proc.devRef .tc main_v22) = W2 m ρ c (Proc.devRef .tc main_v22) := by
  rw [W7_unfold]
  after_results

theorem W7_v36 : W7 m ρ c (Proc.devRef .tc main_v36) = wcat2 (m ((c : Thread nD τ).loc main_arg5)) (m ((c : Thread nD τ).loc main_arg6)) := by
  rw [W7_unfold]
  after_results
  rw [W2_arg5, W2_arg6]
  rfl

theorem W7_v38 : W7 m ρ c (Proc.devRef .tc main_v38) = brow2 (m ((c : Thread nD τ).loc main_arg7)) := by
  rw [W7_unfold]
  after_results
  rw [W2_arg7]
  rfl

/-! ## After the second launch, and the result -/

theorem W8_v39 (hp0 : BodyFact0) (hp1 : BodyFact1) : W8 m ρ c (Proc.devRef .tc main_v39)
    = G1 (agg2 (G0 (agg1 (m ((c : Thread nD τ).loc main_arg0)) (m ((c : Thread nD τ).loc main_arg1))) (cntCol (m ((c : Thread nD τ).loc main_arg0)) (m ((c : Thread nD τ).loc main_arg1))) (m ((c : Thread nD τ).loc main_arg0)) (wcat1 (m ((c : Thread nD τ).loc main_arg2)) (m ((c : Thread nD τ).loc main_arg3))) (brow1 (m ((c : Thread nD τ).loc main_arg4)))) (m ((c : Thread nD τ).loc main_arg1))) (cntCol (m ((c : Thread nD τ).loc main_arg0)) (m ((c : Thread nD τ).loc main_arg1))) (G0 (agg1 (m ((c : Thread nD τ).loc main_arg0)) (m ((c : Thread nD τ).loc main_arg1))) (cntCol (m ((c : Thread nD τ).loc main_arg0)) (m ((c : Thread nD τ).loc main_arg1))) (m ((c : Thread nD τ).loc main_arg0)) (wcat1 (m ((c : Thread nD τ).loc main_arg2)) (m ((c : Thread nD τ).loc main_arg3))) (brow1 (m ((c : Thread nD τ).loc main_arg4)))) (wcat2 (m ((c : Thread nD τ).loc main_arg5)) (m ((c : Thread nD τ).loc main_arg6))) (brow2 (m ((c : Thread nD τ).loc main_arg7))) := by
  refine ((W8_arr m ρ c 5).trans (final1 (V7 m ρ) hp1 c)).trans ?_
  show G1 (W7 m ρ c (Proc.devRef .tc main_v34)) (W7 m ρ c (Proc.devRef .tc main_v19)) (W7 m ρ c (Proc.devRef .tc main_v22))
    (W7 m ρ c (Proc.devRef .tc main_v36)) (W7 m ρ c (Proc.devRef .tc main_v38)) = _
  rw [W7_v34, W7_v19, W7_v22, W7_v36, W7_v38, W2_v22 m ρ c hp0]

/-- The program's result: the first 64 columns of the second launch's array. -/
theorem W9_v40 (hp0 : BodyFact0) (hp1 : BodyFact1) : W9 m ρ c (Proc.devRef .tc main_v40)
    = result (G1 (agg2 (G0 (agg1 (m ((c : Thread nD τ).loc main_arg0)) (m ((c : Thread nD τ).loc main_arg1))) (cntCol (m ((c : Thread nD τ).loc main_arg0)) (m ((c : Thread nD τ).loc main_arg1))) (m ((c : Thread nD τ).loc main_arg0)) (wcat1 (m ((c : Thread nD τ).loc main_arg2)) (m ((c : Thread nD τ).loc main_arg3))) (brow1 (m ((c : Thread nD τ).loc main_arg4)))) (m ((c : Thread nD τ).loc main_arg1))) (cntCol (m ((c : Thread nD τ).loc main_arg0)) (m ((c : Thread nD τ).loc main_arg1))) (G0 (agg1 (m ((c : Thread nD τ).loc main_arg0)) (m ((c : Thread nD τ).loc main_arg1))) (cntCol (m ((c : Thread nD τ).loc main_arg0)) (m ((c : Thread nD τ).loc main_arg1))) (m ((c : Thread nD τ).loc main_arg0)) (wcat1 (m ((c : Thread nD τ).loc main_arg2)) (m ((c : Thread nD τ).loc main_arg3))) (brow1 (m ((c : Thread nD τ).loc main_arg4)))) (wcat2 (m ((c : Thread nD τ).loc main_arg5)) (m ((c : Thread nD τ).loc main_arg6))) (brow2 (m ((c : Thread nD τ).loc main_arg7)))) := by
  show StableHlo.after hostOps2 (W8 m ρ c) (Proc.devRef .tc main_v40) = _
  after_results
  rw [W8_v39 m ρ c hp0 hp1]
  rfl

end Cert.KernelIdeal.HostChain

end
-- ==== Proof.KernelValue.lean ====
/-
  The kernel program's result, as the launches' output arrays over the host's operands, is the specification's output.

  Each launch leaves the unit at every (node, column) of its operands: the neighbours' sums, the in-degree column, the
  features, the two weight matrices stacked along axis 0 and the bias as one row. The host's operands, read at an
  entry, are the specification's own: the stacked matrix's upper half is W_l and its lower half W_r, the bias row is
  the bias. The second layer's weights and bias are padded on the right to 128 columns and the result keeps the first
  64, so there the unit is compared at the one column q < 64, term by term.
-/
import proofs.«173106_j12781822673112_2_alg».proof.Proof.RegionValue
import proofs.«173106_j12781822673112_2_alg».proof.Proof.HostValue

noncomputable section

open scoped BigOperators

namespace Cert.KernelIdeal.KernelValue

open Cert.KernelIdeal Cert.KernelIdeal.RegionValue Cert.KernelIdeal.HostValue
open Idealize.ShloMosaic Idealize.ShloMosaic.ValueIdx GraphMean

/-! ## The host's operands are the specification's -/

/-- The upper half of the first layer's stacked weights is W_l. -/
theorem upper_wcat1 (wl wr : FVec Ideal S128x128 .f32) : upper (wcat1 wl wr) = wl := by
  funext j
  obtain ⟨k, q, rfl⟩ : ∃ (k q : Fin 128), j = ix2 k q := ⟨j 0, j 1, eq_ix2 j⟩
  rw [upper_apply, wcat1_left]

/-- The lower half of the first layer's stacked weights is W_r. -/
theorem lower_wcat1 (wl wr : FVec Ideal S128x128 .f32) : lower (wcat1 wl wr) = wr := by
  funext j
  obtain ⟨k, q, rfl⟩ : ∃ (k q : Fin 128), j = ix2 k q := ⟨j 0, j 1, eq_ix2 j⟩
  rw [lower_apply, wcat1_right]

/-- The first layer's bias row, read as a vector, is the bias. -/
theorem rowOf_brow1 (b : FVec Ideal S128 .f32) : rowOf (brow1 b) = b := by
  funext j
  obtain ⟨q, rfl⟩ : ∃ (q : Fin 128), j = ix1 q := ⟨j 0, eq_ix1 j⟩
  rw [rowOf_apply, brow1_apply]

/-! ## The first launch -/

/-- What the first launch leaves over the host's operands is the specification's first layer. -/
theorem first_layer (x : FVec Ideal S100000x128 .f32) (ei : IVec S2x1600000 32) (wl1 wr1 : FVec Ideal S128x128 .f32)
    (b1 : FVec Ideal S128 .f32) :
    G0 (agg1 x ei) (cntCol x ei) x (wcat1 wl1 wr1) (brow1 b1)
      = GraphMean.hidden (n := 100000) (E := 1600000) (by decide) (srcCol ei) (dstCol ei) x wl1 wr1 b1 := by
  funext i
  obtain ⟨p, q, rfl⟩ : ∃ (p : Fin 100000) (q : Fin 128), i = ix2 p q := ⟨i 0, i 1, eq_ix2 i⟩
  rw [G0_apply, GraphMean.hidden_apply]
  unfold unitOf GraphMean.hiddenAt
  have ha : (fun (P : Fin 100000) (k : Fin 128) => agg1 x ei (ix2 P k))
      = GraphMean.aggAt (n := 100000) (by decide) (srcCol ei) (dstCol ei) x :=
    funext fun P => funext fun k => agg1_apply x ei P k
  have hc : (fun (P : Fin 100000) => cntCol x ei (ix2 P (0 : Fin 1))) = GraphMean.cntAt (dstCol ei) :=
    funext fun P => cntCol_apply x ei P
  rw [ha, hc, upper_wcat1, lower_wcat1, rowOf_brow1]

/-! ## The second launch and the result -/

/-- The first 64 columns of what the second launch leaves over the host's operands — the first launch's output as the
    features — are the specification's output. -/
theorem result_is_output (x : FVec Ideal S100000x128 .f32) (ei : IVec S2x1600000 32) (wl1 wr1 : FVec Ideal S128x128 .f32)
    (b1 : FVec Ideal S128 .f32)
    (wl2 wr2 : FVec Ideal S128x64 .f32) (b2 : FVec Ideal S64 .f32) :
    result (G1 (agg2 (G0 (agg1 x ei) (cntCol x ei) x (wcat1 wl1 wr1) (brow1 b1)) ei) (cntCol x ei)
        (G0 (agg1 x ei) (cntCol x ei) x (wcat1 wl1 wr1) (brow1 b1)) (wcat2 wl2 wr2) (brow2 b2))
      = GraphMean.output (n := 100000) (E := 1600000) (by decide) (srcCol ei) (dstCol ei) x wl1 wr1 b1 wl2 wr2 b2 := by
  funext i
  obtain ⟨p, q, rfl⟩ : ∃ (p : Fin 100000) (q : Fin 64), i = ix2 p q := ⟨i 0, i 1, eq_ix2 i⟩
  rw [result_apply, G1_apply, GraphMean.output_apply, first_layer]
  unfold unitOf GraphMean.outputAt GraphMean.unitAt
  refine congrArg₂ (· + ·) (congrArg₂ (· + ·) ?_ ?_) ?_
  · refine Finset.sum_congr rfl fun k _ => ?_
    show Ideal.div (agg2 _ ei (ix2 p k)) (max (cntCol x ei (ix2 p (0 : Fin 1))) oneW)
        * upper (wcat2 wl2 wr2) (ix2 k (Fin.castAdd 64 q)) = _
    rw [agg2_apply, cntCol_apply, upper_apply, wcat2_left]
  · refine Finset.sum_congr rfl fun k _ => ?_
    rw [lower_apply, wcat2_right]
  · rw [rowOf_apply, brow2_apply]

end Cert.KernelIdeal.KernelValue

end
-- ==== Proof.lean ====
/-
  Two layers of mean aggregation over a graph of 100000 nodes and 1600000 edges (features 128 → 128 → 64): a kernel
  program against a plain array program, equal on the extended reals.

  Per layer, node p receives the sum of its in-neighbours' feature rows and its in-degree, and the layer's unit is
      Σ_k (agg(p,k) / max(cnt p, 1))·W_l(k,q) + Σ_k h(p,k)·W_r(k,q) + b(q),
  rectified after the first layer only (Proof/GraphMeanSpec.lean states it entry by entry).

  The plain program computes exactly this: a row gather, two accumulating scatters, a division, two matrix products and a
  bias (Proof/RefValue.lean, over the generated run and its read-at-an-index lemmas).

  The kernel program arranges it differently. On the host it scatters the feature table widened by a column of ones, so
  one scatter yields the sums and the in-degree together; it stacks W_l over W_r, and for the second layer pads the stack
  and the bias with zero columns up to 128 (Proof/HostValue.lean). Each launch's body, on a tile of 10000 nodes,
  multiplies the sums by the reciprocal 1/max(cnt,1), joins them with the nodes' own rows into 256 columns and contracts
  once against the stacked weights (Proof/BodyValue.lean); ten such tiles make the whole array (Proof/RegionValue.lean),
  and the last host operation keeps the first 64 columns. The run of the whole program, with the result buffer named, is
  Proof/KernelRun.lean; what every buffer holds at each boundary is Proof/HostChain.lean; that this is the same function
  as the specification is Proof/KernelValue.lean.

  The two arrangements agree because a·(1/c) = a/c whenever the divisor c = max(cnt,1) is at least 1, for every extended
  real a, and because a sum over 128 + 128 terms is the sum of its two halves: addition and multiplication are only
  regrouped, never distributed, so no input needs to be finite and the precondition is not opened.

  The three frames: the two kernel programs' are generated; the plain program's is its generated run with the result
  dropped. The idealization rewrote nothing, so there is nothing to preserve.
-/
import proofs.«173106_j12781822673112_2_alg».proof.Defs
import proofs.«173106_j12781822673112_2_alg».proof.Proof.Gen.Kernel
import proofs.«173106_j12781822673112_2_alg».proof.Proof.Gen.Kernel.Frame
import proofs.«173106_j12781822673112_2_alg».proof.Proof.Gen.KernelIdeal
import proofs.«173106_j12781822673112_2_alg».proof.Proof.Gen.KernelIdeal.Frame
import proofs.«173106_j12781822673112_2_alg».proof.Proof.Gen.ReferenceIdeal
import proofs.«173106_j12781822673112_2_alg».proof.Proof.Gen.Pre_finite_inputs
import proofs.«173106_j12781822673112_2_alg».proof.Proof.Gen.ReferenceIdeal.Run
import proofs.«173106_j12781822673112_2_alg».proof.Proof.Gen.ReferenceIdeal.Read
import proofs.«173106_j12781822673112_2_alg».proof.Proof.GraphMeanSpec
import proofs.«173106_j12781822673112_2_alg».proof.Proof.RefValue
import proofs.«173106_j12781822673112_2_alg».proof.Proof.BodyValue
import proofs.«173106_j12781822673112_2_alg».proof.Proof.HostValue
import proofs.«173106_j12781822673112_2_alg».proof.Proof.RegionValue
import proofs.«173106_j12781822673112_2_alg».proof.Proof.KernelRun
import proofs.«173106_j12781822673112_2_alg».proof.Proof.HostChain
import proofs.«173106_j12781822673112_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs cut the same two index columns out of the edge list, by the same operations. -/
theorem src_cols (ei : IVec Cert.KernelIdeal.S2x1600000 32) :
    Cert.ReferenceIdeal.Read.val_main_v9 (F := Ideal) ei = Cert.KernelIdeal.HostValue.srcCol ei := rfl

theorem dst_cols (ei : IVec Cert.KernelIdeal.S2x1600000 32) :
    Cert.ReferenceIdeal.Read.val_main_v12 (F := Ideal) ei = Cert.KernelIdeal.HostValue.dstCol ei := rfl

/-- From memories agreeing on the arguments both programs end with the specification's output of the arguments. -/
theorem algebraic : Cert.algebraic_KernelIdeal_ReferenceIdeal := by
  intro m ρ m' ρ' _ hagree
  refine ⟨fun c => GraphMean.output (n := 100000) (E := 1600000) (by decide)
      (Cert.KernelIdeal.HostValue.srcCol (m ((c.tc : Thread Cert.KernelIdeal.nD Cert.KernelIdeal.τ).loc Cert.KernelIdeal.main_arg1))) (Cert.KernelIdeal.HostValue.dstCol (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.RunValue.run_result (F := Ideal) m ρ)
    exact (Cert.KernelIdeal.HostChain.W9_v40 m ρ c Cert.KernelIdeal.BodyValue.pay0_at
      Cert.KernelIdeal.BodyValue.pay1_at).trans (Cert.KernelIdeal.KernelValue.result_is_output _ _ _ _ _ _ _ _)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, h0, h1, h2, h3, h4, h5, h6, h7,
      Cert.ReferenceIdeal.RefValue.result_is_output, src_cols, dst_cols]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
